-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x8192x1 : Shape := ⟨3, ![4, 8192, 1]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x8192x1 : S_.BroadcastsInDim S4x8192x1 (![] : Fin 0 → Fin S4x8192x1.rank)
  reducesTo_S4x8192x1_S_d0_1_2 : S4x8192x1.ReducesTo [0, 1, 2] S_

variable [Facts]

def fn {F : FTy → Type} [FloatOps F] (main_arg0 : FVec F S4x8192x3 .f32) (main_arg1 : FVec F S4x8192x3 .f32) (main_arg2 : FVec F S4x8192x1 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192x1 .f32 := Host.absf main_arg2
  let main_cst_2 : FVec F S_ .f32 := constant S_ .f32 0x7F800000#32
  let main_v10 : FVec F S4x8192x1 .f32 := broadcastInDim S4x8192x1 ![] bcast_S_S4x8192x1 main_cst_2
  let main_v11 : IVec S4x8192x1 1 := cmpf .olt main_v9 main_v10
  let main_c_3 : IVec S_ 1 := constantI S_ 1 1#1
  let main_v12 : IVec S_ 1 := (fun x v => Host.reduce IntOp.andi x v reducesTo_S4x8192x1_S_d0_1_2 h_S_) main_v11 main_c_3
  let main_v13 : IVec S_ 1 := andi main_v8 main_v12
  main_v13
-- ==== Kernel.lean ====
abbrev S4x8192x3 : Shape := ⟨3, ![4, 8192, 3]⟩
abbrev S4x8192x1 : Shape := ⟨3, ![4, 8192, 1]⟩
abbrev S4x3x8192 : Shape := ⟨3, ![4, 3, 8192]⟩
abbrev S4x1x8192 : Shape := ⟨3, ![4, 1, 8192]⟩
abbrev S1x3x2048 : Shape := ⟨3, ![1, 3, 2048]⟩
abbrev S1x1x2048 : Shape := ⟨3, ![1, 1, 2048]⟩
abbrev S1x1x8192 : Shape := ⟨3, ![1, 1, 8192]⟩
abbrev S2048x1 : Shape := ⟨2, ![2048, 1]⟩
abbrev S1x8192 : Shape := ⟨2, ![1, 8192]⟩
abbrev S1x2048 : Shape := ⟨2, ![1, 2048]⟩
abbrev S3x2048 : Shape := ⟨2, ![3, 2048]⟩
abbrev S1x3x256 : Shape := ⟨3, ![1, 3, 256]⟩
abbrev S3x256 : Shape := ⟨2, ![3, 256]⟩
abbrev S256x3 : Shape := ⟨2, ![256, 3]⟩
abbrev S256x2048 : Shape := ⟨2, ![256, 2048]⟩
abbrev S256x1 : Shape := ⟨2, ![256, 1]⟩
abbrev S256 : Shape := ⟨1, ![256]⟩
abbrev S2048 : Shape := ⟨1, ![2048]⟩
abbrev S4x8192 : Shape := ⟨2, ![4, 8192]⟩
abbrev S_ : Shape := ⟨0, ![]⟩

abbrev nBuf : Space → Nat
  | .hbm => 20
  | .vmem => 11
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x3x8192, .f32⟩
  | .hbm, ⟨4, _⟩ => ⟨S4x3x8192, .f32⟩
  | .hbm, ⟨5, _⟩ => ⟨S4x1x8192, .f32⟩
  | .hbm, ⟨6, _⟩ => ⟨S4x1x8192, .f32⟩
  | .hbm, ⟨7, _⟩ => ⟨S4x8192, .f32⟩
  | .hbm, ⟨8, _⟩ => ⟨S4x8192, .f32⟩
  | .hbm, ⟨9, _⟩ => ⟨S4x8192, .f32⟩
  | .hbm, ⟨10, _⟩ => ⟨S4x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x3x2048, .f32⟩
  | .local _ .vmem, ⟨1, _⟩ => ⟨S1x3x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x8192, .f32⟩
  | .local _ .vmem, ⟨7, _⟩ => ⟨S1x1x8192, .f32⟩
  | .local _ .vmem, ⟨8, _⟩ => ⟨S2048x1, .f32⟩
  | .local _ .vmem, ⟨9, _⟩ => ⟨S1x8192, .f32⟩
  | .local _ .vmem, ⟨10, _⟩ => ⟨S1x2048, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

@[reducible] def k0_t1_loop : Scf.Loop 32 :=
  let c0_i32_8 : BitVec 32 := 0#32
  let c8_i32 : BitVec 32 := 8#32
  let v14 : BitVec 32 := Scalar.addi c0_i32_8 c8_i32
  let c1_i32 : BitVec 32 := 1#32
  ⟨c0_i32_8, v14, c1_i32⟩
def k0_mult1 (k0_t1 : Fin k0_t1_loop.trips) : BitVec 32 :=
  let c0_i32_19 : BitVec 32 := 0#32
  let c0_i32_8 : BitVec 32 := 0#32
  let c1_i32 : BitVec 32 := 1#32
  let arg10 : BitVec 32 := Scf.iv c0_i32_8 c1_i32 k0_t1
  let c1_i32_18 : BitVec 32 := 1#32
  let v33 : BitVec 32 := Scalar.muli arg10 c1_i32_18
  let v34 : BitVec 32 := Scalar.addi c0_i32_19 v33
  let c256_i32 : BitVec 32 := 256#32
  let v35 : BitVec 32 := Scalar.muli v34 c256_i32
  v35
def k0_off1 (k0_t1 : Fin k0_t1_loop.trips) : Fin 3 → Nat :=
  let c0_20 : Index := 0#32
  let c0_21 : Index := 0#32
  let c0_i32_19 : BitVec 32 := 0#32
  let c0_i32_8 : BitVec 32 := 0#32
  let c1_i32 : BitVec 32 := 1#32
  let arg10 : BitVec 32 := Scf.iv c0_i32_8 c1_i32 k0_t1
  let c1_i32_18 : BitVec 32 := 1#32
  let v33 : BitVec 32 := Scalar.muli arg10 c1_i32_18
  let v34 : BitVec 32 := Scalar.addi c0_i32_19 v33
  let c256_i32 : BitVec 32 := 256#32
  let v35 : BitVec 32 := Scalar.muli v34 c256_i32
  let v36 : BitVec 32 := v35
  let v37 : Index := Scalar.indexCast v36
  ![0, 0, v37.toNat]
def k0_off2 (k0_t1 : Fin k0_t1_loop.trips) : Fin 2 → Nat :=
  let c0_i32_19 : BitVec 32 := 0#32
  let c0_i32_8 : BitVec 32 := 0#32
  let c1_i32 : BitVec 32 := 1#32
  let arg10 : BitVec 32 := Scf.iv c0_i32_8 c1_i32 k0_t1
  let c1_i32_18 : BitVec 32 := 1#32
  let v33 : BitVec 32 := Scalar.muli arg10 c1_i32_18
  let v34 : BitVec 32 := Scalar.addi c0_i32_19 v33
  let c256_i32 : BitVec 32 := 256#32
  let v35 : BitVec 32 := Scalar.muli v34 c256_i32
  let v36 : BitVec 32 := v35
  let v65 : Index := Scalar.indexCast v36
  let c0_24 : Index := 0#32
  ![v65.toNat, 0]
def k0_mult2 (i : grid0.Coords) : BitVec 32 :=
  let arg2 : BitVec 32 := BitVec.ofNat 32 (i 2).val
  let c2048_i32 : BitVec 32 := 2048#32
  let v15 : BitVec 32 := Scalar.muli arg2 c2048_i32
  v15
def k0_off3 (i : grid0.Coords) : Fin 2 → Nat :=
  let c0_10 : Index := 0#32
  let arg2 : BitVec 32 := BitVec.ofNat 32 (i 2).val
  let c2048_i32 : BitVec 32 := 2048#32
  let v15 : BitVec 32 := Scalar.muli arg2 c2048_i32
  let v16 : BitVec 32 := v15
  let v17 : Index := Scalar.indexCast v16
  ![0, v17.toNat]
def k0_cond3 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_14 : BitVec 32 := 0#32
  let v27 : BitVec 1 := Scalar.cmpi .ne v26 c0_i32_14
  v27

def k0_cond4 (i : grid0.Coords) : BitVec 1 :=
  let arg1 : BitVec 32 := BitVec.ofNat 32 (i 1).val
  let c3_i32_15 : BitVec 32 := 3#32
  let v28 : BitVec 1 := Scalar.cmpi .eq arg1 c3_i32_15
  let arg2 : BitVec 32 := BitVec.ofNat 32 (i 2).val
  let c3_i32_16 : BitVec 32 := 3#32
  let v29 : BitVec 1 := Scalar.cmpi .eq arg2 c3_i32_16
  let v30 : BitVec 1 := Scalar.andi v28 v29
  let v31 : BitVec 32 := Scalar.extui v30
  let c0_i32_17 : BitVec 32 := 0#32
  let v32 : BitVec 1 := Scalar.cmpi .ne v31 c0_i32_17
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  h_S1x3x256 : 0 < S1x3x256.numel
  shapeCasts_S1x3x256_S3x256 : S1x3x256.ShapeCasts S3x256
  transposes_S3x256_p1_0_S256x3 : S3x256.Transposes [1, 0] S256x3
  slices_S256x3_o0_0_S256x1 : S256x3.Slices ![0, 0] S256x1
  slices_S3x2048_o0_0_S1x2048 : S3x2048.Slices ![0, 0] S1x2048
  broadcasts_S256x1_S256x2048 : S256x1.Broadcasts S256x2048
  broadcasts_S1x2048_S256x2048 : S1x2048.Broadcasts S256x2048
  slices_S256x3_o0_1_S256x1 : S256x3.Slices ![0, 1] S256x1
  slices_S3x2048_o1_0_S1x2048 : S3x2048.Slices ![1, 0] S1x2048
  slices_S256x3_o0_2_S256x1 : S256x3.Slices ![0, 2] S256x1
  slices_S3x2048_o2_0_S1x2048 : S3x2048.Slices ![2, 0] S1x2048
  reduces_S256x2048_S256 : S256x2048.Reduces [1] S256
  shapeCasts_S256_S256x1 : S256.ShapeCasts S256x1
  h_S256x1 : 0 < S256x1.numel
  shapeCasts_S256x1_S256x1 : S256x1.ShapeCasts S256x1
  reduces_S256x2048_S2048 : S256x2048.Reduces [0] S2048
  shapeCasts_S2048_S1x2048 : S2048.ShapeCasts S1x2048
  transposes_S2048x1_p1_0_S1x2048 : S2048x1.Transposes [1, 0] S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x1x8192_S4x8192 : S4x1x8192.ShapeCasts S4x8192
  shapeCasts_S4x8192x1_S4x8192 : S4x8192x1.ShapeCasts S4x8192
  reducesTo_S4x8192_S_d0_1 : S4x8192.ReducesTo [0, 1] S_
  h_S_ : 0 < S_.numel
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x3x256.size a ≤ S1x3x2048.size a
  k0_off2_inb : ∀ k0_t1 : Fin k0_t1_loop.trips, ∀ a, (k0_off2 k0_t1) a + S256x1.size a ≤ S2048x1.size a
  k0_mult2_dvd : ∀ i : grid0.Coords, 2048 ∣ (k0_mult2 i).toNat
  k0_off3_inb : ∀ i : grid0.Coords, ∀ a, (k0_off3 i) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S4x3x8192.size a
  hwx0_0 : ∀ i : grid0.Coords, EltTy.bits .f32 = 32 ∨ (Rect.block (s := S4x3x8192) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x8192.size a
  hwx0_1 : ∀ i : grid0.Coords, EltTy.bits .f32 = 32 ∨ (Rect.block (s := S4x3x8192) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x8192.size a
  hwx0_2 : ∀ i : grid0.Coords, EltTy.bits .f32 = 32 ∨ (Rect.block (s := S4x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_v0) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4x8192x1 : Shape := ⟨3, ![4, 8192, 1]⟩
abbrev S_ : Shape := ⟨0, ![]⟩
abbrev S4x8192 : Shape := ⟨2, ![4, 8192]⟩
abbrev S4x8192x8192 : Shape := ⟨3, ![4, 8192, 8192]⟩
abbrev S4x1x8192 : Shape := ⟨3, ![4, 1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  shapeCasts_S4x8192x1_S4x8192 : S4x8192x1.ShapeCasts S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The chamfer specification, over the extended reals. Two clouds of 8192 points in space per batch entry, `xp`
  (the predicted points) and `xg` (the ground-truth points). The squared distance between point `i` of `xp` and
  point `j` of `xg` is the sum over the three coordinates of the squared difference, added up from zero in
  coordinate order. Each predicted point is sent to its distance from the nearest ground-truth point (an infimum
  over `j`), each ground-truth point to its distance from the nearest predicted point (an infimum over `i`).
-/
import Idealize.ShloMosaic.PureOps.Ideal
import Idealize.ShloMosaic.Lib.ValueIdx

noncomputable section

namespace Cert.Chamfer

open Idealize.ShloMosaic Idealize.ShloMosaic.ValueIdx

/-- Four clouds of 8192 points with three coordinates each. -/
abbrev Cloud : Shape := ⟨3, ![4, 8192, 3]⟩

/-- The squared distance between point `i` of `xp` and point `j` of `xg` in batch entry `b`: the three squared
    coordinate differences added to zero, first coordinate first. -/
def sqDist (xg xp : Cloud.Idx → EReal) (b : Fin 4) (i j : Fin 8192) : EReal :=
  ((0 + (xp (ix3 b i (0 : Fin 3)) - xg (ix3 b j (0 : Fin 3))) * (xp (ix3 b i (0 : Fin 3)) - xg (ix3 b j (0 : Fin 3))))
      + (xp (ix3 b i (1 : Fin 3)) - xg (ix3 b j (1 : Fin 3))) * (xp (ix3 b i (1 : Fin 3)) - xg (ix3 b j (1 : Fin 3))))
    + (xp (ix3 b i (2 : Fin 3)) - xg (ix3 b j (2 : Fin 3))) * (xp (ix3 b i (2 : Fin 3)) - xg (ix3 b j (2 : Fin 3)))

/-- The squared distance from predicted point `i` to the nearest ground-truth point. -/
def toNearestGt (xg xp : Cloud.Idx → EReal) (b : Fin 4) (i : Fin 8192) : EReal :=
  ⨅ j : Fin 8192, sqDist xg xp b i j

/-- The squared distance from ground-truth point `j` to the nearest predicted point. -/
def toNearestPred (xg xp : Cloud.Idx → EReal) (b : Fin 4) (j : Fin 8192) : EReal :=
  ⨅ i : Fin 8192, sqDist xg xp b i j

end Cert.Chamfer

end
-- ==== Proof.Finite.lean ====
/-
  Finiteness of the two clouds, read off the precondition. The precondition conjoins three tests
  "every entry has absolute value below +infinity"; each test is a reduction by "and" of the entrywise
  comparison |x| < +infinity. At the ideal model an entry is an extended real, its absolute value is
  max x (-x), and the constant 0x7F800000 denotes the top element; an extended real whose absolute value
  lies strictly below top is neither top nor bottom, hence a real number.
-/
import proofs.«100491_j8641474200219_2_alg».proof.Pre_finite_inputs
import Idealize.ShloMosaic.Lib.ReduceAll
import Idealize.ShloMosaic.PureOps.Ideal.Laws
import Idealize.ShloMosaic.Lib.ValueIdx

noncomputable section

namespace Cert.Chamfer.Finite

open Idealize.ShloMosaic Idealize.ShloMosaic.ValueIdx

/-- The rank-0 shape has exactly one index. -/
instance : Subsingleton Cert.Pre_finite_inputs.S_.Idx := ⟨fun a b => funext fun d => d.elim0⟩

/-- The pattern 0x7F800000 denotes the top element. -/
theorem inf_eq_top : Ideal.ofBits .f32 0x7F800000#32 = (⊤ : EReal) := by
  simp [Ideal.ofBits, Ideal.ieee]

/-- An extended real whose absolute value max x (-x) compares strictly below +infinity is a real. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

theorem real_of_pre [Cert.Pre_finite_inputs.Facts]
    (a0 a1 : FVec Ideal Cert.Pre_finite_inputs.S4x8192x3 .f32) (a2 : FVec Ideal Cert.Pre_finite_inputs.S4x8192x1 .f32)
    (h : Cert.Pre_finite_inputs.fn (F := Ideal) a0 a1 a2 = fun _ => 1#1) :
    (∀ i, ∃ r : ℝ, a0 i = (r : EReal)) ∧ (∀ i, ∃ r : ℝ, a1 i = (r : EReal)) := by
  have e := congrFun h ValueIdx.ix0
  dsimp only [Cert.Pre_finite_inputs.fn, andi] at e
  obtain ⟨⟨e0, e1⟩, -⟩ := (IntOp.andi_eq_one.1 e).imp_left IntOp.andi_eq_one.1
  refine ⟨fun i => ?_, fun i => ?_⟩
  · exact real_of_abs_lt (a0 i) (Host.reduce_andi_all _ _ _ _ _ e0 i)
  · exact real_of_abs_lt (a1 i) (Host.reduce_andi_all _ _ _ _ _ e1 i)

end Cert.Chamfer.Finite

end
-- ==== Proof.RefMin.lean ====
import proofs.«100491_j8641474200219_2_alg».proof.Proof.Gen.ReferenceIdeal.Read
import proofs.«100491_j8641474200219_2_alg».proof.Proof.Spec

/-
  The reference's two nearest-point tables, read at the extended reals. For real coordinates the reference's
  expanded squared distance, (|p|^2 + |g|^2) - 2 <p, g> clipped below at zero, is the sum of the three squared
  coordinate differences; the minimum over one axis of the table, started from positive infinity, is the infimum
  over that axis.
-/
noncomputable section
namespace Cert.Chamfer.Ref
open Idealize.ShloMosaic Idealize.ShloMosaic.ValueIdx

/-- The word `0x40000000` is the real number two. -/
theorem ofBits_two : Ideal.ofBits .f32 0x40000000#32 = ((2 : ℝ) : EReal) := by
  simp [Ideal.ofBits, Ideal.ieee, -EReal.coe_mul]; norm_num

/-- The word `0x7F800000` is positive infinity, the top of the extended reals. -/
theorem ofBits_inf : Ideal.ofBits .f32 0x7F800000#32 = (⊤ : EReal) := by
  simp [Ideal.ofBits, Ideal.ieee]

/-- A fold of `min` from the top element over a whole finite index type is the infimum: both are characterised by
    the same lower bounds. -/
theorem fold_min_top_eq_iInf {ι : Type} [Fintype ι] (f : ι → EReal) :
    (Finset.univ : Finset ι).fold min ⊤ f = ⨅ k, f k := by
  refine eq_of_forall_le_iff fun c => ?_
  rw [Finset.le_fold_min, le_iInf_iff]
  simp

/-- Dropping the last axis of the distance table leaves the (batch, predicted point) pairs. -/
theorem red2 : Cert.ReferenceIdeal.S4x8192x8192.Reduces [2] Cert.ReferenceIdeal.S4x8192 := by decide

/-- Dropping the middle axis of the distance table leaves the (batch, ground-truth point) pairs. -/
theorem red1 : Cert.ReferenceIdeal.S4x8192x8192.Reduces [1] Cert.ReferenceIdeal.S4x8192 := by decide

/-- Over the pair `(b, i)`, the table index whose last coordinate is `k` is `(b, i, k)`. -/
theorem lift_d2 (b : Fin 4) (i : Fin 8192) (k : Fin 8192) :
    red2.lift (ix2 b i) k = ix3 b i k := by
  funext a
  apply Fin.ext
  match a with
  | ⟨0, _⟩ => rfl
  | ⟨1, _⟩ => rfl
  | ⟨2, _⟩ => rfl

/-- Over the pair `(b, j)`, the table index whose middle coordinate is `k` is `(b, k, j)`. -/
theorem lift_d1 (b : Fin 4) (j : Fin 8192) (k : Fin 8192) :
    red1.lift (ix2 b j) k = ix3 b k j := by
  funext a
  apply Fin.ext
  match a with
  | ⟨0, _⟩ => rfl
  | ⟨1, _⟩ => rfl
  | ⟨2, _⟩ => rfl

/-- For real coordinates the expanded form (squared norms minus twice the inner product, clipped below at zero)
    is the sum of squared coordinate differences: the two agree as real polynomials, and the sum of squares is
    nonnegative, so the clip changes nothing. -/
theorem real_identity (p0 p1 p2 g0 g1 g2 : ℝ) :
    max ((((0 : EReal) + ((p0 : EReal) * p0 + (p1 : EReal) * p1 + (p2 : EReal) * p2))
          + (0 + ((g0 : EReal) * g0 + (g1 : EReal) * g1 + (g2 : EReal) * g2)))
        - ((2 : ℝ) : EReal) * ((p0 : EReal) * g0 + (p1 : EReal) * g1 + (p2 : EReal) * g2)) 0
      = ((0 + ((p0 : EReal) - g0) * ((p0 : EReal) - g0)) + ((p1 : EReal) - g1) * ((p1 : EReal) - g1))
          + ((p2 : EReal) - g2) * ((p2 : EReal) - g2) := by
  have e : ∀ x y : ℝ, ((x : EReal) - (y : EReal)) = ((x - y : ℝ) : EReal) := fun x y => (EReal.coe_sub x y).symm
  simp only [e, ← EReal.coe_mul, ← EReal.coe_add, ← EReal.coe_zero]
  rw [max_eq_left]
  · exact EReal.coe_eq_coe_iff.2 (by ring)
  · exact EReal.coe_le_coe_iff.2 (by nlinarith [sq_nonneg (p0 - g0), sq_nonneg (p1 - g1), sq_nonneg (p2 - g2)])

/-- One element of the clipped expanded distance is the specification's squared distance. -/
theorem val_elem (xg xp : (⟨Cert.ReferenceIdeal.S4x8192x3, .f32⟩ : BufTy).Contents (Elt Ideal)) (hg : ∀ i, ∃ r : ℝ, xg i = (r : EReal))
    (hp : ∀ i, ∃ r : ℝ, xp i = (r : EReal)) (b : Fin 4) (i j : Fin 8192) :
    Cert.ReferenceIdeal.Read.val_main_v14 (F := Ideal) xg xp (ix3 b i j) = sqDist xg xp b i j := by
  have e1 : ∀ k : Fin 3, Cert.ReferenceIdeal.Read.idx_main_v1 (Cert.ReferenceIdeal.Read.idx_main_v5 (Cert.ReferenceIdeal.Read.idx_main_v7 (ix3 b i j))) k = ix3 b i k := fun k =>
    funext fun a => Fin.ext (by match a with | ⟨0, _⟩ => rfl | ⟨1, _⟩ => rfl | ⟨2, _⟩ => rfl)
  have e3 : ∀ k : Fin 3, Cert.ReferenceIdeal.Read.idx_main_v3 (Cert.ReferenceIdeal.Read.idx_main_v6 (Cert.ReferenceIdeal.Read.idx_main_v8 (ix3 b i j))) k = ix3 b j k := fun k =>
    funext fun a => Fin.ext (by match a with | ⟨0, _⟩ => rfl | ⟨1, _⟩ => rfl | ⟨2, _⟩ => rfl)
  have el : ∀ k : Fin 3, Cert.ReferenceIdeal.Read.lidx_main_v4 (ix3 b i j) k = ix3 b i k := fun k =>
    funext fun a => Fin.ext (by match a with | ⟨0, _⟩ => rfl | ⟨1, _⟩ => rfl | ⟨2, _⟩ => rfl)
  have er : ∀ k : Fin 3, Cert.ReferenceIdeal.Read.ridx_main_v4 (ix3 b i j) k = ix3 b j k := fun k =>
    funext fun a => Fin.ext (by match a with | ⟨0, _⟩ => rfl | ⟨1, _⟩ => rfl | ⟨2, _⟩ => rfl)
  rw [Cert.ReferenceIdeal.Read.val_main_v14_apply, Cert.ReferenceIdeal.Read.val_main_v12_apply, Cert.ReferenceIdeal.Read.val_main_v9_apply, Cert.ReferenceIdeal.Read.val_main_v7_apply, Cert.ReferenceIdeal.Read.val_main_v5_apply, Cert.ReferenceIdeal.Read.val_main_v1_apply,
    Cert.ReferenceIdeal.Read.val_main_v8_apply, Cert.ReferenceIdeal.Read.val_main_v6_apply, Cert.ReferenceIdeal.Read.val_main_v3_apply, Cert.ReferenceIdeal.Read.val_main_v11_apply, Cert.ReferenceIdeal.Read.val_main_v10_apply, Cert.ReferenceIdeal.Read.val_main_cst_1_apply,
    Cert.ReferenceIdeal.Read.val_main_v4_apply, Cert.ReferenceIdeal.Read.val_main_v13_apply, Cert.ReferenceIdeal.Read.val_main_cst_2_apply, Cert.ReferenceIdeal.Read.val_main_cst_apply, Cert.ReferenceIdeal.Read.val_main_cst_0_apply]
  simp only [e1, e3, el, er, Cert.ReferenceIdeal.Read.val_main_v0_apply, Cert.ReferenceIdeal.Read.val_main_v2_apply, Fin.sum_univ_three]
  obtain ⟨p0, hp0⟩ := hp (ix3 b i (0 : Fin 3))
  obtain ⟨p1, hp1⟩ := hp (ix3 b i (1 : Fin 3))
  obtain ⟨p2, hp2⟩ := hp (ix3 b i (2 : Fin 3))
  obtain ⟨g0, hg0⟩ := hg (ix3 b j (0 : Fin 3))
  obtain ⟨g1, hg1⟩ := hg (ix3 b j (1 : Fin 3))
  obtain ⟨g2, hg2⟩ := hg (ix3 b j (2 : Fin 3))
  unfold sqDist
  rw [hp0, hp1, hp2, hg0, hg1, hg2]
  simp only [Ideal.ofBits_def, Ideal.addf_def, Ideal.subf_def, Ideal.mulf_def, Ideal.maximumf_def, Ideal.ofBits_zero_f32,
    ofBits_two]
  exact real_identity p0 p1 p2 g0 g1 g2

/-- The minimum over the ground-truth points, from positive infinity, is the infimum of the squared distances. -/
theorem val_rowMin (xg xp : (⟨Cert.ReferenceIdeal.S4x8192x3, .f32⟩ : BufTy).Contents (Elt Ideal)) (hg : ∀ i, ∃ r : ℝ, xg i = (r : EReal))
    (hp : ∀ i, ∃ r : ℝ, xp i = (r : EReal)) (b : Fin 4) (i : Fin 8192) :
    Cert.ReferenceIdeal.Read.val_main_v15 (F := Ideal) xg xp (ix2 b i) = toNearestGt xg xp b i := by
  unfold Cert.ReferenceIdeal.Read.val_main_v15
  rw [Host.reduce_eq_fold_single (FloatOps.minimumf (F := Ideal) (φ := .f32)) _ _ _
    red2, Cert.ReferenceIdeal.Read.val_main_cst_3_apply, Ideal.ofBits_def, ofBits_inf]
  unfold toNearestGt
  rw [← fold_min_top_eq_iInf]
  refine Finset.fold_congr fun k _ => ?_
  exact (congrArg (Cert.ReferenceIdeal.Read.val_main_v14 (F := Ideal) xg xp) (lift_d2 b i k)).trans (val_elem xg xp hg hp b i k)

/-- The minimum over the predicted points, from positive infinity, is the infimum of the squared distances. -/
theorem val_colMin (xg xp : (⟨Cert.ReferenceIdeal.S4x8192x3, .f32⟩ : BufTy).Contents (Elt Ideal)) (hg : ∀ i, ∃ r : ℝ, xg i = (r : EReal))
    (hp : ∀ i, ∃ r : ℝ, xp i = (r : EReal)) (b : Fin 4) (j : Fin 8192) :
    Cert.ReferenceIdeal.Read.val_main_v16 (F := Ideal) xg xp (ix2 b j) = toNearestPred xg xp b j := by
  unfold Cert.ReferenceIdeal.Read.val_main_v16
  rw [Host.reduce_eq_fold_single (FloatOps.minimumf (F := Ideal) (φ := .f32)) _ _ _
    red1, Cert.ReferenceIdeal.Read.val_main_cst_4_apply, Ideal.ofBits_def, ofBits_inf]
  unfold toNearestPred
  rw [← fold_min_top_eq_iInf]
  refine Finset.fold_congr fun k _ => ?_
  exact (congrArg (Cert.ReferenceIdeal.Read.val_main_v14 (F := Ideal) xg xp) (lift_d1 b j k)).trans (val_elem xg xp hg hp b k j)

end Cert.Chamfer.Ref
end
-- ==== Proof.HostTail.lean ====
/-
  The host lines that follow the kernel region, and the reference's last stages. After the region the kernel
  program reshapes each of its two result arrays from [4, 1, 8192] to [4, 8192], reshapes the mask from
  [4, 8192, 1] to [4, 8192], multiplies the first result by the mask, sums every entry from zero and divides by
  32768, sums every entry of the second result from zero and divides by 32768, and adds the two quotients. The
  reference ends with the same operations, with the same constants, applied to its two minimum stages. So once
  the two result arrays agree entry by entry with those two stages, the two programs' results are equal; no sum
  is ever evaluated, the two sides are the same function of equal arguments.
-/
import proofs.«100491_j8641474200219_2_alg».proof.Proof.Gen.KernelIdeal.Frame
import proofs.«100491_j8641474200219_2_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.Chamfer.HostTail

open Cert.KernelIdeal Cert.KernelIdeal.Gen
open Idealize.ShloMosaic Idealize.ShloMosaic.TcCoe Idealize.ShloMosaic.ValueIdx Idealize.SL.Sem
open Idealize.ShloMosaic.StableHlo

/-- The tail both programs end with, as one function of the two result arrays (already of shape [4, 8192]) and the
    mask (already reshaped to [4, 8192]): the first result times the mask, summed over every entry from zero and
    divided by 32768, plus the second result summed over every entry from zero and divided by 32768. -/
def tail (r q w : FVec Ideal S4x8192 .f32) : FVec Ideal S_ .f32 :=
  addf
    (Host.divf (F := Ideal)
      (Host.reduceAdd (F := Ideal) (mulf r w) (constant (F := Ideal) S_ .f32 0x00000000#32) reducesTo_S4x8192_S_d0_1 h_S_)
      (constant (F := Ideal) S_ .f32 0x47000000#32))
    (Host.divf (F := Ideal)
      (Host.reduceAdd (F := Ideal) q (constant (F := Ideal) S_ .f32 0x00000000#32) reducesTo_S4x8192_S_d0_1 h_S_)
      (constant (F := Ideal) S_ .f32 0x47000000#32))

/-- The kernel program's result buffer after the host lines that follow the region: the tail of the two result arrays
    the region leaves, each reshaped from [4, 1, 8192] to [4, 8192], and of the mask argument reshaped likewise. -/
theorem kernel_tail (m : (ℓ : Loc nD τ sig) → Buf (Elt Ideal) ℓ) (c : Dev nD) :
    (Pipeline.afterTail₀ cfgs (dats (F := Ideal) m) 0 (V0 m) [hostOps1] c main_v11 : S_.Idx → EReal)
      = tail
          (shapeCast S4x8192 ((dats (F := Ideal) m 0 c).arrAt 2 cfg0.N : S4x1x8192.Idx → EReal) shapeCasts_S4x1x8192_S4x8192)
          (shapeCast S4x8192 ((dats (F := Ideal) m 0 c).arrAt 3 cfg0.N : S4x1x8192.Idx → EReal) shapeCasts_S4x1x8192_S4x8192)
          (shapeCast S4x8192 (m ((c : Thread nD τ).loc main_arg2) : S4x8192x1.Idx → EReal) shapeCasts_S4x8192x1_S4x8192) := by
  have h2 : Pipeline.withArrays (cfgs 0).spec c (V0 m c) (fun w => (dats (F := Ideal) m 0 c).arrAt w (cfgs 0).N)
      (Proc.devRef .tc main_v2_0) = (dats (F := Ideal) m 0 c).arrAt 2 cfg0.N :=
    Pipeline.withArrays_arr spec0 launch0.win.arr_inj c _ _ 2
  have h3 : Pipeline.withArrays (cfgs 0).spec c (V0 m c) (fun w => (dats (F := Ideal) m 0 c).arrAt w (cfgs 0).N)
      (Proc.devRef .tc main_v2_1) = (dats (F := Ideal) m 0 c).arrAt 3 cfg0.N :=
    Pipeline.withArrays_arr spec0 launch0.win.arr_inj c _ _ 3
  have hm : Pipeline.withArrays (cfgs 0).spec c (V0 m c) (fun w => (dats (F := Ideal) m 0 c).arrAt w (cfgs 0).N)
      (Proc.devRef .tc main_arg2) = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v11) = _
  after_results
  rw [h2, h3, hm]
  rfl

/-- The reference program's result is the same tail of its two minimum stages and of the mask reshaped. -/
theorem reference_tail (x0 x1 : FVec Ideal S4x8192x3 .f32) (x2 : FVec Ideal S4x8192x1 .f32) :
    Cert.ReferenceIdeal.Read.val_main_v23 (F := Ideal) x0 x1 x2
      = tail (Cert.ReferenceIdeal.Read.val_main_v15 (F := Ideal) x0 x1) (Cert.ReferenceIdeal.Read.val_main_v16 (F := Ideal) x0 x1)
          (shapeCast S4x8192 x2 shapeCasts_S4x8192x1_S4x8192) := rfl

/-- A [4, 1, 8192] array reshaped to [4, 8192] reads, at (b, i), the array at (b, 0, i). -/
theorem reshape_apply (x : S4x1x8192.Idx → EReal) (b : Fin 4) (i : Fin 8192) :
    shapeCast S4x8192 x shapeCasts_S4x1x8192_S4x8192 (ix2 b i) = x (ix3 b (0 : Fin 1) i) :=
  shapeCast_apply x shapeCasts_S4x1x8192_S4x8192 _ _ (by
    rw [Shape.rowMajor_val_three, Shape.rowMajor_val_two]
    show (b.val * 1 + 0) * 8192 + i.val = b.val * 8192 + i.val
    omega)

/-- If the two result arrays the region leaves are, entry by entry, the reference's two minimum stages, the kernel
    program's result is the reference's. -/
theorem tail_result (m : (ℓ : Loc nD τ sig) → Buf (Elt Ideal) ℓ) (c : Dev nD)
    (hrow : ∀ (b : Fin 4) (i : Fin 8192),
      ((dats (F := Ideal) m 0 c).arrAt 2 cfg0.N : S4x1x8192.Idx → EReal) (ix3 b (0 : Fin 1) i)
        = Cert.ReferenceIdeal.Read.val_main_v15 (F := Ideal) (m ((c : Thread nD τ).loc main_arg0)) (m ((c : Thread nD τ).loc main_arg1)) (ix2 b i))
    (hcol : ∀ (b : Fin 4) (j : Fin 8192),
      ((dats (F := Ideal) m 0 c).arrAt 3 cfg0.N : S4x1x8192.Idx → EReal) (ix3 b (0 : Fin 1) j)
        = Cert.ReferenceIdeal.Read.val_main_v16 (F := Ideal) (m ((c : Thread nD τ).loc main_arg0)) (m ((c : Thread nD τ).loc main_arg1)) (ix2 b j)) :
    (Pipeline.afterTail₀ cfgs (dats (F := Ideal) m) 0 (V0 m) [hostOps1] c main_v11 : S_.Idx → EReal)
      = Cert.ReferenceIdeal.Read.val_main_v23 (F := Ideal) (m ((c : Thread nD τ).loc main_arg0)) (m ((c : Thread nD τ).loc main_arg1))
          (m ((c : Thread nD τ).loc main_arg2)) := by
  have e2 : shapeCast S4x8192 ((dats (F := Ideal) m 0 c).arrAt 2 cfg0.N : S4x1x8192.Idx → EReal) shapeCasts_S4x1x8192_S4x8192
      = Cert.ReferenceIdeal.Read.val_main_v15 (F := Ideal) (m ((c : Thread nD τ).loc main_arg0)) (m ((c : Thread nD τ).loc main_arg1)) :=
    funext fun j => by
      obtain ⟨b, i, rfl⟩ : ∃ b i, j = ix2 b i := ⟨j 0, j 1, eq_ix2 j⟩
      exact (reshape_apply _ b i).trans (hrow b i)
  have e3 : shapeCast S4x8192 ((dats (F := Ideal) m 0 c).arrAt 3 cfg0.N : S4x1x8192.Idx → EReal) shapeCasts_S4x1x8192_S4x8192
      = Cert.ReferenceIdeal.Read.val_main_v16 (F := Ideal) (m ((c : Thread nD τ).loc main_arg0)) (m ((c : Thread nD τ).loc main_arg1)) :=
    funext fun j => by
      obtain ⟨b, i, rfl⟩ : ∃ b i, j = ix2 b i := ⟨j 0, j 1, eq_ix2 j⟩
      exact (reshape_apply _ b i).trans (hcol b i)
  rw [kernel_tail m c, e2, e3]
  exact (reference_tail _ _ _).symm

end Cert.Chamfer.HostTail

end
-- ==== Proof.Assembly.lean ====
/-
  The claims, assembled. The three frame claims are the generated frame runs. The two idealized programs end with
  equal results: the reference's result is a fixed function of the three arguments (its last stage); the kernel
  program's result buffer is the host tail applied to the two result arrays its region leaves, and once those
  arrays hold, entry by entry, the nearest-point distances of the specification, they are the reference's two
  minimum stages (for real coordinates, which the precondition gives), so the tail's value is the reference's.
  What the region leaves in its two result arrays is taken here as a hypothesis.
-/
import proofs.«100491_j8641474200219_2_alg».proof.Defs
import proofs.«100491_j8641474200219_2_alg».proof.Proof.Gen.Kernel.Frame
import proofs.«100491_j8641474200219_2_alg».proof.Proof.Gen.KernelIdeal.Frame
import proofs.«100491_j8641474200219_2_alg».proof.Proof.Gen.ReferenceIdeal.Run
import proofs.«100491_j8641474200219_2_alg».proof.Proof.Gen.ReferenceIdeal.Read
import proofs.«100491_j8641474200219_2_alg».proof.Proof.Gen.Pre_finite_inputs
import proofs.«100491_j8641474200219_2_alg».proof.Proof.Spec
import proofs.«100491_j8641474200219_2_alg».proof.Proof.Finite
import proofs.«100491_j8641474200219_2_alg».proof.Proof.RefMin
import proofs.«100491_j8641474200219_2_alg».proof.Proof.HostTail

set_option maxRecDepth 16384

noncomputable section

namespace Cert.Chamfer.Assembly

open Idealize.ShloMosaic Idealize.ShloMosaic.TcCoe Idealize.ShloMosaic.ValueIdx Idealize.SL.Sem

/-- The kernel program as printed runs and leaves its arguments unchanged: the generated frame run. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged: the generated frame run. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its generated run, the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The two idealized programs end with equal results, given what the region leaves in its two result arrays for
    arguments whose cloud coordinates are real numbers. -/
theorem algebraic_of_real
    (hR : ∀ (m : (ℓ : Loc Cert.KernelIdeal.nD Cert.KernelIdeal.τ Cert.KernelIdeal.sig) → Buf (Elt Ideal) ℓ) (c : Dev Cert.KernelIdeal.nD),
      (∀ i, ∃ r : ℝ, (m ((c.tc : Thread Cert.KernelIdeal.nD Cert.KernelIdeal.τ).loc Cert.KernelIdeal.main_arg0) : Cert.KernelIdeal.S4x8192x3.Idx → EReal) i = (r : EReal)) →
      (∀ i, ∃ r : ℝ, (m ((c.tc : Thread Cert.KernelIdeal.nD Cert.KernelIdeal.τ).loc Cert.KernelIdeal.main_arg1) : Cert.KernelIdeal.S4x8192x3.Idx → EReal) i = (r : EReal)) →
      ∀ (b : Fin 4) (i : Fin 8192),
        ((Cert.KernelIdeal.Gen.dats (F := Ideal) m 0 c).arrAt 2 Cert.KernelIdeal.cfg0.N : Cert.KernelIdeal.S4x1x8192.Idx → EReal) (ix3 b (0 : Fin 1) i)
          = Cert.Chamfer.toNearestGt (m ((c.tc : Thread Cert.KernelIdeal.nD Cert.KernelIdeal.τ).loc Cert.KernelIdeal.main_arg0))
              (m ((c.tc : Thread Cert.KernelIdeal.nD Cert.KernelIdeal.τ).loc Cert.KernelIdeal.main_arg1)) b i)
    (hC : ∀ (m : (ℓ : Loc Cert.KernelIdeal.nD Cert.KernelIdeal.τ Cert.KernelIdeal.sig) → Buf (Elt Ideal) ℓ) (c : Dev Cert.KernelIdeal.nD),
      (∀ i, ∃ r : ℝ, (m ((c.tc : Thread Cert.KernelIdeal.nD Cert.KernelIdeal.τ).loc Cert.KernelIdeal.main_arg0) : Cert.KernelIdeal.S4x8192x3.Idx → EReal) i = (r : EReal)) →
      (∀ i, ∃ r : ℝ, (m ((c.tc : Thread Cert.KernelIdeal.nD Cert.KernelIdeal.τ).loc Cert.KernelIdeal.main_arg1) : Cert.KernelIdeal.S4x8192x3.Idx → EReal) i = (r : EReal)) →
      ∀ (b : Fin 4) (j : Fin 8192),
        ((Cert.KernelIdeal.Gen.dats (F := Ideal) m 0 c).arrAt 3 Cert.KernelIdeal.cfg0.N : Cert.KernelIdeal.S4x1x8192.Idx → EReal) (ix3 b (0 : Fin 1) j)
          = Cert.Chamfer.toNearestPred (m ((c.tc : Thread Cert.KernelIdeal.nD Cert.KernelIdeal.τ).loc Cert.KernelIdeal.main_arg0))
              (m ((c.tc : Thread Cert.KernelIdeal.nD Cert.KernelIdeal.τ).loc Cert.KernelIdeal.main_arg1)) b j) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.ReferenceIdeal.Read.val_main_v23 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · -- the kernel program: the generated frame run, its result buffer read through the host tail
    refine (θ_run Cert.KernelIdeal.defs _ _).mono (fun _ h c => ?_) (Cert.KernelIdeal.Gen.run_main m ρ)
    obtain ⟨hg, hp⟩ := Cert.Chamfer.Finite.real_of_pre _ _ _ (hpre c)
    have hrow := fun (b : Fin 4) (i : Fin 8192) =>
      (hR m c hg hp b i).trans (Cert.Chamfer.Ref.val_rowMin _ _ hg hp b i).symm
    have hcol := fun (b : Fin 4) (j : Fin 8192) =>
      (hC m c hg hp b j).trans (Cert.Chamfer.Ref.val_colMin _ _ hg hp b j).symm
    exact ⟨((h c).2 Cert.KernelIdeal.main_v11 (Pipeline.mem_restRefs_of Cert.KernelIdeal.main_v11 (by decide) (by decide))).trans
        (Cert.Chamfer.HostTail.tail_result m c hrow hcol),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c)⟩
  · -- the reference: its generated run, the result's term folded to its last stage, at arguments that agree
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2.1, (hagree c).2.2]

/-- The same with the two array facts stated for every memory. -/
theorem algebraic_of
    (hR : ∀ (m : (ℓ : Loc Cert.KernelIdeal.nD Cert.KernelIdeal.τ Cert.KernelIdeal.sig) → Buf (Elt Ideal) ℓ) (c : Dev Cert.KernelIdeal.nD)
      (b : Fin 4) (i : Fin 8192),
        ((Cert.KernelIdeal.Gen.dats (F := Ideal) m 0 c).arrAt 2 Cert.KernelIdeal.cfg0.N : Cert.KernelIdeal.S4x1x8192.Idx → EReal) (ix3 b (0 : Fin 1) i)
          = Cert.Chamfer.toNearestGt (m ((c.tc : Thread Cert.KernelIdeal.nD Cert.KernelIdeal.τ).loc Cert.KernelIdeal.main_arg0))
              (m ((c.tc : Thread Cert.KernelIdeal.nD Cert.KernelIdeal.τ).loc Cert.KernelIdeal.main_arg1)) b i)
    (hC : ∀ (m : (ℓ : Loc Cert.KernelIdeal.nD Cert.KernelIdeal.τ Cert.KernelIdeal.sig) → Buf (Elt Ideal) ℓ) (c : Dev Cert.KernelIdeal.nD)
      (b : Fin 4) (j : Fin 8192),
        ((Cert.KernelIdeal.Gen.dats (F := Ideal) m 0 c).arrAt 3 Cert.KernelIdeal.cfg0.N : Cert.KernelIdeal.S4x1x8192.Idx → EReal) (ix3 b (0 : Fin 1) j)
          = Cert.Chamfer.toNearestPred (m ((c.tc : Thread Cert.KernelIdeal.nD Cert.KernelIdeal.τ).loc Cert.KernelIdeal.main_arg0))
              (m ((c.tc : Thread Cert.KernelIdeal.nD Cert.KernelIdeal.τ).loc Cert.KernelIdeal.main_arg1)) b j) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) :=
  algebraic_of_real (fun m c _ _ b i => hR m c b i) (fun m c _ _ b j => hC m c b j)

/-- Every claim of the certificate, given the two array facts. -/
theorem claim_of
    (hR : ∀ (m : (ℓ : Loc Cert.KernelIdeal.nD Cert.KernelIdeal.τ Cert.KernelIdeal.sig) → Buf (Elt Ideal) ℓ) (c : Dev Cert.KernelIdeal.nD),
      (∀ i, ∃ r : ℝ, (m ((c.tc : Thread Cert.KernelIdeal.nD Cert.KernelIdeal.τ).loc Cert.KernelIdeal.main_arg0) : Cert.KernelIdeal.S4x8192x3.Idx → EReal) i = (r : EReal)) →
      (∀ i, ∃ r : ℝ, (m ((c.tc : Thread Cert.KernelIdeal.nD Cert.KernelIdeal.τ).loc Cert.KernelIdeal.main_arg1) : Cert.KernelIdeal.S4x8192x3.Idx → EReal) i = (r : EReal)) →
      ∀ (b : Fin 4) (i : Fin 8192),
        ((Cert.KernelIdeal.Gen.dats (F := Ideal) m 0 c).arrAt 2 Cert.KernelIdeal.cfg0.N : Cert.KernelIdeal.S4x1x8192.Idx → EReal) (ix3 b (0 : Fin 1) i)
          = Cert.Chamfer.toNearestGt (m ((c.tc : Thread Cert.KernelIdeal.nD Cert.KernelIdeal.τ).loc Cert.KernelIdeal.main_arg0))
              (m ((c.tc : Thread Cert.KernelIdeal.nD Cert.KernelIdeal.τ).loc Cert.KernelIdeal.main_arg1)) b i)
    (hC : ∀ (m : (ℓ : Loc Cert.KernelIdeal.nD Cert.KernelIdeal.τ Cert.KernelIdeal.sig) → Buf (Elt Ideal) ℓ) (c : Dev Cert.KernelIdeal.nD),
      (∀ i, ∃ r : ℝ, (m ((c.tc : Thread Cert.KernelIdeal.nD Cert.KernelIdeal.τ).loc Cert.KernelIdeal.main_arg0) : Cert.KernelIdeal.S4x8192x3.Idx → EReal) i = (r : EReal)) →
      (∀ i, ∃ r : ℝ, (m ((c.tc : Thread Cert.KernelIdeal.nD Cert.KernelIdeal.τ).loc Cert.KernelIdeal.main_arg1) : Cert.KernelIdeal.S4x8192x3.Idx → EReal) i = (r : EReal)) →
      ∀ (b : Fin 4) (j : Fin 8192),
        ((Cert.KernelIdeal.Gen.dats (F := Ideal) m 0 c).arrAt 3 Cert.KernelIdeal.cfg0.N : Cert.KernelIdeal.S4x1x8192.Idx → EReal) (ix3 b (0 : Fin 1) j)
          = Cert.Chamfer.toNearestPred (m ((c.tc : Thread Cert.KernelIdeal.nD Cert.KernelIdeal.τ).loc Cert.KernelIdeal.main_arg0))
              (m ((c.tc : Thread Cert.KernelIdeal.nD Cert.KernelIdeal.τ).loc Cert.KernelIdeal.main_arg1)) b j) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of_real hR hC⟩

end Cert.Chamfer.Assembly

end
-- ==== Proof.Payload.lean ====
/-
  The kernel body's arithmetic read at an index, over the extended reals. One chunk of 256 predicted points meets a
  tile of 2048 ground-truth points: entry (r, j) of the chunk's table is the squared distance between predicted point
  r and ground-truth point j, three squared coordinate differences added to zero. The table's row minima are folded
  into the running row minima, its column minima into the running column minima; a minimum over a finite index set
  started from +∞ is an infimum.
-/
import proofs.«100491_j8641474200219_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Chamfer.Kernel

open Cert.KernelIdeal Cert.KernelIdeal.Gen Idealize.ShloMosaic Idealize.ShloMosaic.ValueIdx

/-- The pattern of +∞ denotes the top element. -/
theorem ofBits_inf : Ideal.ofBits .f32 0x7F800000#32 = (⊤ : EReal) := by simp [Ideal.ofBits, Ideal.ieee]

/-- A minimum folded over a whole finite index set from `b` is `b` met with the infimum of the family. -/
theorem fold_min_univ {ι : Type} [Fintype ι] (f : ι → EReal) (b : EReal) :
    (Finset.univ : Finset ι).fold min b f = min b (⨅ k, f k) := by
  refine eq_of_forall_le_iff fun c => ?_
  rw [Finset.le_fold_min, le_min_iff, le_iInf_iff]
  simp

/-- The squared distance between point `r` of a chunk of predicted points (coordinates along the middle axis) and point
    `j` of a tile of ground-truth points. -/
def chunkDist (Pc : Vec Ideal S1x3x256 .f32) (G : Vec Ideal S1x3x2048 .f32) (r : Fin 256) (j : Fin 2048) : EReal :=
  ((0 + (Pc (ix3 (0 : Fin 1) (0 : Fin 3) r) - G (ix3 (0 : Fin 1) (0 : Fin 3) j)) * (Pc (ix3 (0 : Fin 1) (0 : Fin 3) r) - G (ix3 (0 : Fin 1) (0 : Fin 3) j)))
      + (Pc (ix3 (0 : Fin 1) (1 : Fin 3) r) - G (ix3 (0 : Fin 1) (1 : Fin 3) j)) * (Pc (ix3 (0 : Fin 1) (1 : Fin 3) r) - G (ix3 (0 : Fin 1) (1 : Fin 3) j)))
    + (Pc (ix3 (0 : Fin 1) (2 : Fin 3) r) - G (ix3 (0 : Fin 1) (2 : Fin 3) j)) * (Pc (ix3 (0 : Fin 1) (2 : Fin 3) r) - G (ix3 (0 : Fin 1) (2 : Fin 3) j))

/-! ## Layout steps at an index -/

theorem col_to_table (x : Vec Ideal S256x1 .f32) (h : S256x1.Broadcasts S256x2048) (r : Fin 256) (j : Fin 2048) :
    broadcastTo S256x2048 x h (ix2 r j) = x (ix2 r (0 : Fin 1)) :=
  broadcastTo_apply x h (ix2 r j) (ix2 r (0 : Fin 1)) fun a => match a with
    | ⟨0, _⟩ => by show r.val = if (256 : Nat) = 1 then 0 else r.val; rfl
    | ⟨1, _⟩ => by show (0 : Nat) = if (1 : Nat) = 1 then 0 else j.val; rfl

theorem row_to_table (x : Vec Ideal S1x2048 .f32) (h : S1x2048.Broadcasts S256x2048) (r : Fin 256) (j : Fin 2048) :
    broadcastTo S256x2048 x h (ix2 r j) = x (ix2 (0 : Fin 1) j) :=
  broadcastTo_apply x h (ix2 r j) (ix2 (0 : Fin 1) j) fun a => match a with
    | ⟨0, _⟩ => by show (0 : Nat) = if (1 : Nat) = 1 then 0 else r.val; rfl
    | ⟨1, _⟩ => by show j.val = if (2048 : Nat) = 1 then 0 else j.val; rfl

theorem coord_col (T : Vec Ideal S256x3 .f32) (d : Fin 3) (off : Fin 2 → Nat) (hoff : off = ![0, d.val]) (h : S256x3.Slices off S256x1)
    (r : Fin 256) : extractStridedSlice S256x1 off T h (ix2 r (0 : Fin 1)) = T (ix2 r d) := by
  subst hoff
  exact extractStridedSlice_apply _ T h (ix2 r (0 : Fin 1)) (ix2 r d) fun a => match a with
    | ⟨0, _⟩ => by show r.val = 0 + r.val; omega
    | ⟨1, _⟩ => by show d.val = d.val + 0; omega

theorem coord_row (T : Vec Ideal S3x2048 .f32) (d : Fin 3) (off : Fin 2 → Nat) (hoff : off = ![d.val, 0]) (h : S3x2048.Slices off S1x2048)
    (j : Fin 2048) : extractStridedSlice S1x2048 off T h (ix2 (0 : Fin 1) j) = T (ix2 d j) := by
  subst hoff
  exact extractStridedSlice_apply _ T h (ix2 (0 : Fin 1) j) (ix2 d j) fun a => match a with
    | ⟨0, _⟩ => by show d.val = d.val + 0; omega
    | ⟨1, _⟩ => by show j.val = 0 + j.val; omega

theorem flip_chunk (Y : Vec Ideal S3x256 .f32) (h : S3x256.Transposes [1, 0] S256x3) (r : Fin 256) (d : Fin 3) :
    transpose S256x3 [1, 0] Y h (ix2 r d) = Y (ix2 d r) :=
  transpose_apply _ Y h (ix2 r d) (ix2 d r) fun b => match b with | ⟨0, _⟩ => rfl | ⟨1, _⟩ => rfl

theorem chunk_rows (v : Vec Ideal S1x3x256 .f32) (h : S1x3x256.ShapeCasts S3x256) (d : Fin 3) (r : Fin 256) :
    shapeCast S3x256 v h (ix2 d r) = v (ix3 (0 : Fin 1) d r) :=
  shapeCast_apply v h (ix2 d r) (ix3 (0 : Fin 1) d r) (by
    rw [Shape.rowMajor_val_three, Shape.rowMajor_val_two]
    show (0 * 3 + d.val) * 256 + r.val = d.val * 256 + r.val
    omega)

theorem tile_rows (v : Vec Ideal S1x3x2048 .f32) (h : S1x3x2048.ShapeCasts S3x2048) (d : Fin 3) (j : Fin 2048) :
    shapeCast S3x2048 v h (ix2 d j) = v (ix3 (0 : Fin 1) d j) :=
  shapeCast_apply v h (ix2 d j) (ix3 (0 : Fin 1) d j) (by
    rw [Shape.rowMajor_val_three, Shape.rowMajor_val_two]
    show (0 * 3 + d.val) * 2048 + j.val = d.val * 2048 + j.val
    omega)

/-- The chunk's table of squared distances, entry by entry. -/
theorem table_apply (G : Vec Ideal S1x3x2048 .f32) (Pc : Vec Ideal S1x3x256 .f32) (r : Fin 256) (j : Fin 2048) :
    k0_pay2 (F := Ideal) (k0_pay8 G) Pc (ix2 r j) = chunkDist Pc G r j := by
  unfold k0_pay2 k0_pay8 chunkDist
  simp only [addf_apply, mulf_apply, subf_apply, broadcast_apply]
  rw [col_to_table, col_to_table, col_to_table, row_to_table, row_to_table, row_to_table,
    coord_col _ (0 : Fin 3) ![0, 0] rfl, coord_col _ (1 : Fin 3) ![0, 1] rfl, coord_col _ (2 : Fin 3) ![0, 2] rfl,
    coord_row _ (0 : Fin 3) ![0, 0] rfl, coord_row _ (1 : Fin 3) ![1, 0] rfl, coord_row _ (2 : Fin 3) ![2, 0] rfl,
    flip_chunk, flip_chunk, flip_chunk, chunk_rows, chunk_rows, chunk_rows, tile_rows, tile_rows, tile_rows,
    Ideal.ofBits_def, Ideal.ofBits_zero_f32]

/-! ## The minima -/

/-- The same for the float minimum at the extended reals. -/
theorem fold_minimumf_univ {ι : Type} [Fintype ι] (f : ι → EReal) (b : EReal) :
    (Finset.univ : Finset ι).fold (FloatOps.minimumf (F := Ideal) (φ := .f32)) b f = min b (⨅ k, f k) :=
  fold_min_univ f b

theorem vec_to_col (v : Vec Ideal S256 .f32) (h : S256.ShapeCasts S256x1) (r : Fin 256) :
    shapeCast S256x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

theorem vec_to_row (v : Vec Ideal S2048 .f32) (h : S2048.ShapeCasts S1x2048) (j : Fin 2048) :
    shapeCast S1x2048 v h (ix2 (0 : Fin 1) j) = v (ix1 j) :=
  shapeCast_apply v h (ix2 (0 : Fin 1) j) (ix1 j) (by
    rw [Shape.rowMajor_val_one, Shape.rowMajor_val_two]
    show j.val = 0 * 2048 + j.val
    omega)

/-- A row of the table reduced by minimum from +∞: the infimum over the row. -/
theorem row_min_apply (T : Vec Ideal S256x2048 .f32) (h : S256x2048.Reduces [1] S256) (hφ : FKind.Formats .f32)
    (hacc : (0x7F800000#32 : BitVec 32) = FKind.minimumf.neutral .f32 hφ) (r : Fin 256) :
    multiReduction (F := Ideal) .minimumf [1] S256 T 0x7F800000#32 h hφ hacc (ix1 r) = ⨅ j : Fin 2048, T (ix2 r j) := by
  rw [multiReduction_minimumf_eq_fold, h.fold_filter_drop_single, Ideal.ofBits_def, ofBits_inf]
  refine (fold_minimumf_univ _ _).trans ?_
  rw [min_eq_right le_top]
  refine iInf_congr fun k => ?_
  exact congrArg T (funext fun a => Fin.ext (by match a with | ⟨0, _⟩ => rfl | ⟨1, _⟩ => rfl))

/-- A column of the table reduced by minimum from +∞: the infimum over the column. -/
theorem col_min_apply (T : Vec Ideal S256x2048 .f32) (h : S256x2048.Reduces [0] S2048) (hφ : FKind.Formats .f32)
    (hacc : (0x7F800000#32 : BitVec 32) = FKind.minimumf.neutral .f32 hφ) (j : Fin 2048) :
    multiReduction (F := Ideal) .minimumf [0] S2048 T 0x7F800000#32 h hφ hacc (ix1 j) = ⨅ r : Fin 256, T (ix2 r j) := by
  rw [multiReduction_minimumf_eq_fold, h.fold_filter_drop_single, Ideal.ofBits_def, ofBits_inf]
  refine (fold_minimumf_univ _ _).trans ?_
  rw [min_eq_right le_top]
  refine iInf_congr fun k => ?_
  exact congrArg T (funext fun a => Fin.ext (by match a with | ⟨0, _⟩ => rfl | ⟨1, _⟩ => rfl))

/-- What a trip stores back into the running row minima, row by row. -/
theorem rowfold_apply (G : Vec Ideal S1x3x2048 .f32) (Pc : Vec Ideal S1x3x256 .f32) (cur : Vec Ideal S256x1 .f32) (r : Fin 256) :
    k0_pay3 (F := Ideal) (k0_pay8 G) Pc cur (ix2 r (0 : Fin 1))
      = min (cur (ix2 r (0 : Fin 1))) (⨅ j : Fin 2048, chunkDist Pc G r j) := by
  unfold k0_pay3
  dsimp only
  rw [shapeCast_self, minimumf_apply, vec_to_col]
  exact congrArg (min _) ((row_min_apply _ _ _ _ r).trans (iInf_congr fun j => table_apply G Pc r j))

/-- What a trip stores back into the running column minima of the tile, column by column. -/
theorem colfold_apply (G : Vec Ideal S1x3x2048 .f32) (Pc : Vec Ideal S1x3x256 .f32) (cur : Vec Ideal S1x2048 .f32) (j : Fin 2048) :
    k0_pay4 (F := Ideal) (k0_pay8 G) Pc cur (ix2 (0 : Fin 1) j)
      = min (cur (ix2 (0 : Fin 1) j)) (⨅ r : Fin 256, chunkDist Pc G r j) := by
  unfold k0_pay4
  dsimp only
  rw [minimumf_apply, vec_to_row]
  exact congrArg (min _) ((col_min_apply _ _ _ _ j).trans (iInf_congr fun r => table_apply G Pc r j))

/-- A same-shape cast of the running column minima changes nothing. -/
theorem keep_apply (v : FVec Ideal S1x2048 .f32) : k0_pay9 (F := Ideal) v = v := by
  unfold k0_pay9
  exact shapeCast_self _ _

/-- The tile's column minima met with the stretch of the whole-cloud column minima they belong to. -/
theorem merge_apply (a b : Vec Ideal S1x2048 .f32) (j : Fin 2048) :
    k0_pay10 (F := Ideal) a b (ix2 (0 : Fin 1) j) = min (a (ix2 (0 : Fin 1) j)) (b (ix2 (0 : Fin 1) j)) := by
  unfold k0_pay10
  rw [shapeCast_self, minimumf_apply]

/-- The three fills are +∞ everywhere. -/
theorem fill_rows : k0_pay5 (F := Ideal) = fun _ => (⊤ : EReal) := by
  unfold k0_pay5
  dsimp only
  rw [shapeCast_self]
  funext y
  rw [broadcast_apply]
  exact ofBits_inf

theorem fill_cols : k0_pay6 (F := Ideal) = fun _ => (⊤ : EReal) := by
  unfold k0_pay6
  dsimp only
  rw [shapeCast_self]
  funext y
  rw [broadcast_apply]
  exact ofBits_inf

theorem fill_tile : k0_pay7 (F := Ideal) = fun _ => (⊤ : EReal) := by
  unfold k0_pay7
  dsimp only
  rw [shapeCast_self]
  funext y
  rw [broadcast_apply]
  exact ofBits_inf

/-- The running row minima, a column of 2048, written out as a row of the first output's block. -/
theorem rows_out_apply (v : Vec Ideal S2048x1 .f32) (r : Fin 2048) :
    k0_pay11 (F := Ideal) v (ix3 (0 : Fin 1) (0 : Fin 1) r) = v (ix2 r (0 : Fin 1)) := by
  unfold k0_pay11
  dsimp only
  refine (shapeCast_apply _ _ (ix3 (0 : Fin 1) (0 : Fin 1) r) (ix2 (0 : Fin 1) r) (by
    rw [Shape.rowMajor_val_two, Shape.rowMajor_val_three]
    show 0 * 2048 + r.val = (0 * 1 + 0) * 2048 + r.val
    omega)).trans ?_
  exact transpose_apply _ v _ (ix2 (0 : Fin 1) r) (ix2 r (0 : Fin 1)) fun b => match b with | ⟨0, _⟩ => rfl | ⟨1, _⟩ => rfl

/-- The whole-cloud column minima written out as the second output's block. -/
theorem cols_out_apply (v : Vec Ideal S1x8192 .f32) (j : Fin 8192) :
    k0_pay1 (F := Ideal) v (ix3 (0 : Fin 1) (0 : Fin 1) j) = v (ix2 (0 : Fin 1) j) := by
  unfold k0_pay1
  exact shapeCast_apply _ _ (ix3 (0 : Fin 1) (0 : Fin 1) j) (ix2 (0 : Fin 1) j) (by
    rw [Shape.rowMajor_val_two, Shape.rowMajor_val_three]
    show 0 * 8192 + j.val = (0 * 1 + 0) * 8192 + j.val
    omega)

end Cert.Chamfer.Kernel

end
-- ==== Proof.Loop.lean ====
/-
  The eight trips over a stretch of 2048 predicted points. Trip k takes the chunk of 256 points from 256 k on, builds
  its table of squared distances to the tile of 2048 ground-truth points, and folds the table's row minima into rows
  [256 k, 256 k + 256) of the running row minima and its column minima into the tile's running column minima. After
  the eight trips every row r holds what it held before met with the infimum over the tile of the squared distances
  from predicted point r, and every column j what it held before met with the infimum over the whole stretch.
-/
import proofs.«100491_j8641474200219_2_alg».proof.Proof.Gen.KernelIdeal.Loops
import proofs.«100491_j8641474200219_2_alg».proof.Proof.Payload
import Idealize.ShloMosaic.Lib.WritesUnit

set_option maxRecDepth 16384

noncomputable section

namespace Cert.Chamfer.Kernel

open Cert.KernelIdeal Cert.KernelIdeal.Gen Idealize.ShloMosaic Idealize.ShloMosaic.ValueIdx Idealize.ShloMosaic.TcCoe
open Idealize.SL.Sem

/-- The squared distance between predicted point `r` of a stretch and ground-truth point `j` of a tile. -/
def tileDist (P G : Vec Ideal S1x3x2048 .f32) (r j : Fin 2048) : EReal :=
  ((0 + (P (ix3 (0 : Fin 1) (0 : Fin 3) r) - G (ix3 (0 : Fin 1) (0 : Fin 3) j)) * (P (ix3 (0 : Fin 1) (0 : Fin 3) r) - G (ix3 (0 : Fin 1) (0 : Fin 3) j)))
      + (P (ix3 (0 : Fin 1) (1 : Fin 3) r) - G (ix3 (0 : Fin 1) (1 : Fin 3) j)) * (P (ix3 (0 : Fin 1) (1 : Fin 3) r) - G (ix3 (0 : Fin 1) (1 : Fin 3) j)))
    + (P (ix3 (0 : Fin 1) (2 : Fin 3) r) - G (ix3 (0 : Fin 1) (2 : Fin 3) j)) * (P (ix3 (0 : Fin 1) (2 : Fin 3) r) - G (ix3 (0 : Fin 1) (2 : Fin 3) j))

/-- A load through a unit-stride rectangle, at an index: the contents at the offsets plus the index. -/
theorem readAt_unit_apply {sig : RefSig} {κ : Kind} {sp : Space} {s : Shape} {e : EltTy} {Val : EltTy → Type}
    (v : View sig κ sp s e) (f : v.ty.Contents Val) {off off' size : Fin s.rank → ℕ}
    (inb : ∀ a, off a + size a ≤ s.size a) (heq : off = off') (x : (Rect.unit off size inb).shape.Idx) (y : s.Idx)
    (hy : ∀ a, (y a).val = off' a + (x a).val) :
    v.readAt Val (Rect.unit off size inb).toLoadRect f x = v.read Val f y := by
  subst heq
  rw [View.readAt_apply]
  refine congrArg (v.read Val f) (funext fun a => Fin.ext ?_)
  rw [hy a]
  show off a + 1 * (x a).val = off a + (x a).val
  omega

/-- The infimum over the rows below 256 (k + 1) splits into the rows below 256 k and the chunk from 256 k on. -/
theorem iInf_chunk (f : Fin 2048 → EReal) (k : ℕ) (hk : k < 8) :
    (⨅ r : Fin 2048, ⨅ (_ : r.val < 256 * (k + 1)), f r)
      = min (⨅ r : Fin 2048, ⨅ (_ : r.val < 256 * k), f r) (⨅ r' : Fin 256, f ⟨256 * k + r'.val, by omega⟩) := by
  apply le_antisymm
  · refine le_min (le_iInf₂ fun r hr => iInf₂_le r (by omega)) (le_iInf fun r' => ?_)
    exact iInf₂_le (⟨256 * k + r'.val, by omega⟩ : Fin 2048) (by show 256 * k + r'.val < 256 * (k + 1); omega)
  · refine le_iInf₂ fun r hr => ?_
    by_cases h : r.val < 256 * k
    · exact (min_le_left _ _).trans (iInf₂_le r h)
    · refine (min_le_right _ _).trans ((iInf_le _ (⟨r.val - 256 * k, by omega⟩ : Fin 256)).trans (le_of_eq ?_))
      exact congrArg f (Fin.ext (by show 256 * k + (r.val - 256 * k) = r.val; omega))

theorem trips_eq : k0_t1_loop.trips = 8 := by decide

section Trips

variable (c : Dev nD) (i : grid0.Coords) (arg3 : Memref sig .tc .vmem S1x3x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048x1 .f32) (harg7 : arg7.IsWhole) (arg8 : Memref sig .tc .vmem S1x8192 .f32) (harg8 : arg8.IsWhole) (arg9 : Memref sig .tc .vmem S1x2048 .f32) (harg9 : arg9.IsWhole)
variable (P G : Vec Ideal S1x3x2048 .f32) (G7 : BufTy.Contents (Elt Ideal) arg7.view.ty) (G9 : BufTy.Contents (Elt Ideal) arg9.view.ty)

/-- The pieces the trips before `k` stored, newest first, into the row minima and into the tile's column minima. -/
abbrev stored (k : ℕ) : List (View.Piece (Elt Ideal) S2048x1 .f32) × List (View.Piece (Elt Ideal) S1x2048 .f32) :=
  pb_k0_t1 (F := Ideal) Variants.none c none i arg3 harg3 arg4 harg4 arg5 harg5 arg6 harg6 arg7 harg7 arg8 harg8 arg9 harg9 G (harg3.unread P) G7 G9 k

/-- The running row minima before trip `k`. -/
def rowsAt (k : ℕ) : S2048x1.Idx → EReal :=
  arg7.view.read (Elt Ideal) (arg7.view.writes (Elt Ideal) G7 (stored c i arg3 harg3 arg4 harg4 arg5 harg5 arg6 harg6 arg7 harg7 arg8 harg8 arg9 harg9 P G G7 G9 k).1)

/-- The tile's running column minima before trip `k`. -/
def colsAt (k : ℕ) : S1x2048.Idx → EReal :=
  arg9.view.read (Elt Ideal) (arg9.view.writes (Elt Ideal) G9 (stored c i arg3 harg3 arg4 harg4 arg5 harg5 arg6 harg6 arg7 harg7 arg8 harg8 arg9 harg9 P G G7 G9 k).2)

/-- The chunk of predicted points trip `k` loads. -/
abbrev chunkAt (k : Fin k0_t1_loop.trips) : Vec Ideal S1x3x256 .f32 :=
  View.readAt (Elt Ideal) arg3.view (Rect.unit (s := S1x3x2048) (k0_off1 k) S1x3x256.size (k0_off1_inb k)).toLoadRect (harg3.unread P)

/-- One trip's two stores: a chunk of rows of the row minima, and the whole of the tile's column minima. -/
theorem trip_pieces (k : Fin k0_t1_loop.trips) (f7 : BufTy.Contents (Elt Ideal) arg7.view.ty) (f9 : BufTy.Contents (Elt Ideal) arg9.view.ty) :
    tripL_k0_t1 (F := Ideal) Variants.none c none i arg3 harg3 arg4 harg4 arg5 harg5 arg6 harg6 arg7 harg7 arg8 harg8 arg9 harg9 G (harg3.unread P) k f7 f9
      = ([⟨Rect.unit (s := S2048x1) (k0_off2 k) S256x1.size (k0_off2_inb k),
            k0_pay3 (k0_pay8 G) (chunkAt arg3 harg3 P k)
              (View.readAt (Elt Ideal) arg7.view (Rect.unit (s := S2048x1) (k0_off2 k) S256x1.size (k0_off2_inb k)).toLoadRect f7)⟩],
         [⟨Rect.unit (s := S1x2048) ![0, 0] S1x2048.size inb_S1x2048_S1x2048_0_0,
            k0_pay9 (k0_pay4 (k0_pay8 G) (chunkAt arg3 harg3 P k)
              (View.readAt (Elt Ideal) arg9.view (Rect.unit (s := S1x2048) ![0, 0] S1x2048.size inb_S1x2048_S1x2048_0_0).toLoadRect f9))⟩]) := by
  unfold tripL_k0_t1 trip_k0_t1
  dsimp only
  unfold trip_k0_t1.sl.r
  rfl

/-- The chunk's points are the stretch's points from 256 k on. -/
theorem chunk_apply (k : Fin k0_t1_loop.trips) (d : Fin 3) (r' : Fin 256) (r : Fin 2048) (hr : r.val = 256 * k.val + r'.val) :
    chunkAt arg3 harg3 P k (ix3 (0 : Fin 1) d r') = P (ix3 (0 : Fin 1) d r) := by
  refine (readAt_unit_apply arg3.view (harg3.unread P) (k0_off1_inb k) (k0_off1_eq k) (ix3 (0 : Fin 1) d r') (ix3 (0 : Fin 1) d r)
    (fun a => match a with
      | ⟨0, _⟩ => by show (0 : ℕ) = 0 + 0; rfl
      | ⟨1, _⟩ => by show d.val = 0 + d.val; omega
      | ⟨2, _⟩ => by show r.val = 256 * k.val + r'.val; exact hr)).trans ?_
  rw [harg3.read_unread]

theorem chunkDist_eq (k : Fin k0_t1_loop.trips) (r' : Fin 256) (r : Fin 2048) (hr : r.val = 256 * k.val + r'.val) (j : Fin 2048) :
    chunkDist (chunkAt arg3 harg3 P k) G r' j = tileDist P G r j := by
  unfold chunkDist tileDist
  rw [chunk_apply arg3 harg3 P k (0 : Fin 3) r' r hr, chunk_apply arg3 harg3 P k (1 : Fin 3) r' r hr, chunk_apply arg3 harg3 P k (2 : Fin 3) r' r hr]

/-- The pieces stored before trip k + 1: trip k's two stores in front of those before it. -/
theorem stored_succ (k : Fin k0_t1_loop.trips) :
    stored c i arg3 harg3 arg4 harg4 arg5 harg5 arg6 harg6 arg7 harg7 arg8 harg8 arg9 harg9 P G G7 G9 (k.val + 1)
      = ((⟨Rect.unit (s := S2048x1) (k0_off2 k) S256x1.size (k0_off2_inb k),
            k0_pay3 (k0_pay8 G) (chunkAt arg3 harg3 P k)
              (View.readAt (Elt Ideal) arg7.view (Rect.unit (s := S2048x1) (k0_off2 k) S256x1.size (k0_off2_inb k)).toLoadRect
                (arg7.view.writes (Elt Ideal) G7 (stored c i arg3 harg3 arg4 harg4 arg5 harg5 arg6 harg6 arg7 harg7 arg8 harg8 arg9 harg9 P G G7 G9 k.val).1))⟩ : View.Piece (Elt Ideal) S2048x1 .f32)
            :: (stored c i arg3 harg3 arg4 harg4 arg5 harg5 arg6 harg6 arg7 harg7 arg8 harg8 arg9 harg9 P G G7 G9 k.val).1,
         (⟨Rect.unit (s := S1x2048) ![0, 0] S1x2048.size inb_S1x2048_S1x2048_0_0,
            k0_pay9 (k0_pay4 (k0_pay8 G) (chunkAt arg3 harg3 P k)
              (View.readAt (Elt Ideal) arg9.view (Rect.unit (s := S1x2048) ![0, 0] S1x2048.size inb_S1x2048_S1x2048_0_0).toLoadRect
                (arg9.view.writes (Elt Ideal) G9 (stored c i arg3 harg3 arg4 harg4 arg5 harg5 arg6 harg6 arg7 harg7 arg8 harg8 arg9 harg9 P G G7 G9 k.val).2)))⟩ : View.Piece (Elt Ideal) S1x2048 .f32)
            :: (stored c i arg3 harg3 arg4 harg4 arg5 harg5 arg6 harg6 arg7 harg7 arg8 harg8 arg9 harg9 P G G7 G9 k.val).2) := by
  show pb_k0_t1 (F := Ideal) Variants.none c none i arg3 harg3 arg4 harg4 arg5 harg5 arg6 harg6 arg7 harg7 arg8 harg8 arg9 harg9 G (harg3.unread P) G7 G9 (k.val + 1) = _
  rw [pb_k0_t1_succ, trip_pieces]
  rfl

theorem stored_succ_rows (k : Fin k0_t1_loop.trips) :
    (stored c i arg3 harg3 arg4 harg4 arg5 harg5 arg6 harg6 arg7 harg7 arg8 harg8 arg9 harg9 P G G7 G9 (k.val + 1)).1 = (⟨Rect.unit (s := S2048x1) (k0_off2 k) S256x1.size (k0_off2_inb k),
            k0_pay3 (k0_pay8 G) (chunkAt arg3 harg3 P k)
              (View.readAt (Elt Ideal) arg7.view (Rect.unit (s := S2048x1) (k0_off2 k) S256x1.size (k0_off2_inb k)).toLoadRect
                (arg7.view.writes (Elt Ideal) G7 (stored c i arg3 harg3 arg4 harg4 arg5 harg5 arg6 harg6 arg7 harg7 arg8 harg8 arg9 harg9 P G G7 G9 k.val).1))⟩ : View.Piece (Elt Ideal) S2048x1 .f32) :: (stored c i arg3 harg3 arg4 harg4 arg5 harg5 arg6 harg6 arg7 harg7 arg8 harg8 arg9 harg9 P G G7 G9 k.val).1 :=
  congrArg Prod.fst (stored_succ c i arg3 harg3 arg4 harg4 arg5 harg5 arg6 harg6 arg7 harg7 arg8 harg8 arg9 harg9 P G G7 G9 k)

theorem stored_succ_cols (k : Fin k0_t1_loop.trips) :
    (stored c i arg3 harg3 arg4 harg4 arg5 harg5 arg6 harg6 arg7 harg7 arg8 harg8 arg9 harg9 P G G7 G9 (k.val + 1)).2 = (⟨Rect.unit (s := S1x2048) ![0, 0] S1x2048.size inb_S1x2048_S1x2048_0_0,
            k0_pay9 (k0_pay4 (k0_pay8 G) (chunkAt arg3 harg3 P k)
              (View.readAt (Elt Ideal) arg9.view (Rect.unit (s := S1x2048) ![0, 0] S1x2048.size inb_S1x2048_S1x2048_0_0).toLoadRect
                (arg9.view.writes (Elt Ideal) G9 (stored c i arg3 harg3 arg4 harg4 arg5 harg5 arg6 harg6 arg7 harg7 arg8 harg8 arg9 harg9 P G G7 G9 k.val).2)))⟩ : View.Piece (Elt Ideal) S1x2048 .f32) :: (stored c i arg3 harg3 arg4 harg4 arg5 harg5 arg6 harg6 arg7 harg7 arg8 harg8 arg9 harg9 P G G7 G9 k.val).2 :=
  congrArg Prod.snd (stored_succ c i arg3 harg3 arg4 harg4 arg5 harg5 arg6 harg6 arg7 harg7 arg8 harg8 arg9 harg9 P G G7 G9 k)

/-- A row of trip k's chunk: what it held met with the infimum over the tile. -/
theorem rowsAt_succ_in (k : Fin k0_t1_loop.trips) (r' : Fin 256) (r : Fin 2048) (hr : r.val = 256 * k.val + r'.val) :
    rowsAt c i arg3 harg3 arg4 harg4 arg5 harg5 arg6 harg6 arg7 harg7 arg8 harg8 arg9 harg9 P G G7 G9 (k.val + 1) (ix2 r (0 : Fin 1))
      = min (rowsAt c i arg3 harg3 arg4 harg4 arg5 harg5 arg6 harg6 arg7 harg7 arg8 harg8 arg9 harg9 P G G7 G9 k.val (ix2 r (0 : Fin 1))) (⨅ j : Fin 2048, tileDist P G r j) := by
  unfold rowsAt
  rw [stored_succ_rows]
  refine (View.read_writes_cons_unit_of_mem arg7.view G7 (k0_off2_inb k) _ _ (ix2 r (0 : Fin 1)) (ix2 r' (0 : Fin 1)) (k0_off2_eq k)
    (fun a => match a with
      | ⟨0, _⟩ => by show r.val = 256 * k.val + r'.val; exact hr
      | ⟨1, _⟩ => by show (0 : ℕ) = 0 + 0; rfl)).trans ?_
  refine (rowfold_apply G _ _ r').trans ?_
  refine congrArg₂ min ?_ ?_
  · exact readAt_unit_apply arg7.view _ (k0_off2_inb k) (k0_off2_eq k) (ix2 r' (0 : Fin 1)) (ix2 r (0 : Fin 1))
      (fun a => match a with
        | ⟨0, _⟩ => by show r.val = 256 * k.val + r'.val; exact hr
        | ⟨1, _⟩ => by show (0 : ℕ) = 0 + 0; rfl)
  · exact iInf_congr fun j => chunkDist_eq arg3 harg3 P G k r' r hr j

/-- A row outside trip k's chunk keeps what it held. -/
theorem rowsAt_succ_out (k : Fin k0_t1_loop.trips) (r : Fin 2048) (hr : r.val < 256 * k.val ∨ 256 * k.val + 256 ≤ r.val) :
    rowsAt c i arg3 harg3 arg4 harg4 arg5 harg5 arg6 harg6 arg7 harg7 arg8 harg8 arg9 harg9 P G G7 G9 (k.val + 1) (ix2 r (0 : Fin 1)) = rowsAt c i arg3 harg3 arg4 harg4 arg5 harg5 arg6 harg6 arg7 harg7 arg8 harg8 arg9 harg9 P G G7 G9 k.val (ix2 r (0 : Fin 1)) := by
  unfold rowsAt
  rw [stored_succ_rows]
  exact View.read_writes_cons_unit_of_not_mem arg7.view G7 (k0_off2_inb k) _ _ (ix2 r (0 : Fin 1)) (k0_off2_eq k) (0 : Fin 2)
    (by show r.val < 256 * k.val ∨ 256 * k.val + 256 ≤ r.val; exact hr)

/-- Every column: what it held met with the infimum over trip k's chunk. -/
theorem colsAt_succ (k : Fin k0_t1_loop.trips) (hk : k.val < 8) (j : Fin 2048) :
    colsAt c i arg3 harg3 arg4 harg4 arg5 harg5 arg6 harg6 arg7 harg7 arg8 harg8 arg9 harg9 P G G7 G9 (k.val + 1) (ix2 (0 : Fin 1) j)
      = min (colsAt c i arg3 harg3 arg4 harg4 arg5 harg5 arg6 harg6 arg7 harg7 arg8 harg8 arg9 harg9 P G G7 G9 k.val (ix2 (0 : Fin 1) j))
          (⨅ r' : Fin 256, tileDist P G (⟨256 * k.val + r'.val, by omega⟩ : Fin 2048) j) := by
  unfold colsAt
  rw [stored_succ_cols]
  refine (View.read_writes_cons_unit_of_mem arg9.view G9 inb_S1x2048_S1x2048_0_0 _ _ (ix2 (0 : Fin 1) j) (ix2 (0 : Fin 1) j) rfl
    (fun a => match a with
      | ⟨0, _⟩ => by show (0 : ℕ) = 0 + 0; rfl
      | ⟨1, _⟩ => by show j.val = 0 + j.val; omega)).trans ?_
  rw [keep_apply]
  refine (colfold_apply G _ _ j).trans ?_
  refine congrArg₂ min ?_ ?_
  · exact readAt_unit_apply arg9.view _ inb_S1x2048_S1x2048_0_0 rfl (ix2 (0 : Fin 1) j) (ix2 (0 : Fin 1) j)
      (fun a => match a with
        | ⟨0, _⟩ => by show (0 : ℕ) = 0 + 0; rfl
        | ⟨1, _⟩ => by show j.val = 0 + j.val; omega)
  · exact iInf_congr fun r' => chunkDist_eq arg3 harg3 P G k r' (⟨256 * k.val + r'.val, by omega⟩ : Fin 2048) rfl j

/-- The running row minima before trip k: rows below 256 k are done, the others untouched. -/
theorem rowsAt_eq (k : ℕ) (hk : k ≤ 8) (r : Fin 2048) :
    rowsAt c i arg3 harg3 arg4 harg4 arg5 harg5 arg6 harg6 arg7 harg7 arg8 harg8 arg9 harg9 P G G7 G9 k (ix2 r (0 : Fin 1))
      = if r.val < 256 * k then min (arg7.view.read (Elt Ideal) G7 (ix2 r (0 : Fin 1))) (⨅ j : Fin 2048, tileDist P G r j)
        else arg7.view.read (Elt Ideal) G7 (ix2 r (0 : Fin 1)) := by
  induction k with
  | zero => rw [if_neg (by omega)]; rfl
  | succ k ih =>
    have hk8 : k < 8 := by omega
    have hkt : k < k0_t1_loop.trips := by rw [trips_eq]; exact hk8
    have ih' := ih (by omega)
    by_cases h : 256 * k ≤ r.val ∧ r.val < 256 * k + 256
    · rw [rowsAt_succ_in c i arg3 harg3 arg4 harg4 arg5 harg5 arg6 harg6 arg7 harg7 arg8 harg8 arg9 harg9 P G G7 G9 ⟨k, hkt⟩ (⟨r.val - 256 * k, by omega⟩ : Fin 256) r (by show r.val = 256 * k + (r.val - 256 * k); omega),
        ih', if_neg (by omega), if_pos (by omega)]
    · rw [rowsAt_succ_out c i arg3 harg3 arg4 harg4 arg5 harg5 arg6 harg6 arg7 harg7 arg8 harg8 arg9 harg9 P G G7 G9 ⟨k, hkt⟩ r (by show r.val < 256 * k ∨ 256 * k + 256 ≤ r.val; omega), ih']
      by_cases h2 : r.val < 256 * k
      · rw [if_pos h2, if_pos (by omega)]
      · rw [if_neg h2, if_neg (by omega)]

/-- The tile's running column minima before trip k: the rows below 256 k are in. -/
theorem colsAt_eq (k : ℕ) (hk : k ≤ 8) (j : Fin 2048) :
    colsAt c i arg3 harg3 arg4 harg4 arg5 harg5 arg6 harg6 arg7 harg7 arg8 harg8 arg9 harg9 P G G7 G9 k (ix2 (0 : Fin 1) j)
      = min (arg9.view.read (Elt Ideal) G9 (ix2 (0 : Fin 1) j)) (⨅ r : Fin 2048, ⨅ (_ : r.val < 256 * k), tileDist P G r j) := by
  induction k with
  | zero =>
    have : (⨅ r : Fin 2048, ⨅ (_ : r.val < 256 * 0), tileDist P G r j) = ⊤ := by simp
    rw [this, min_eq_left le_top]; rfl
  | succ k ih =>
    have hk8 : k < 8 := by omega
    have hkt : k < k0_t1_loop.trips := by rw [trips_eq]; exact hk8
    rw [colsAt_succ c i arg3 harg3 arg4 harg4 arg5 harg5 arg6 harg6 arg7 harg7 arg8 harg8 arg9 harg9 P G G7 G9 ⟨k, hkt⟩ hk8 j, ih (by omega), min_assoc, iInf_chunk (fun r => tileDist P G r j) k hk8]

/-- After the eight trips: every row met with its infimum over the tile. -/
theorem rows_done (r : Fin 2048) :
    rowsAt c i arg3 harg3 arg4 harg4 arg5 harg5 arg6 harg6 arg7 harg7 arg8 harg8 arg9 harg9 P G G7 G9 8 (ix2 r (0 : Fin 1))
      = min (arg7.view.read (Elt Ideal) G7 (ix2 r (0 : Fin 1))) (⨅ j : Fin 2048, tileDist P G r j) := by
  rw [rowsAt_eq c i arg3 harg3 arg4 harg4 arg5 harg5 arg6 harg6 arg7 harg7 arg8 harg8 arg9 harg9 P G G7 G9 8 le_rfl r, if_pos (by have := r.isLt; omega)]

/-- After the eight trips: every column met with its infimum over the stretch. -/
theorem cols_done (j : Fin 2048) :
    colsAt c i arg3 harg3 arg4 harg4 arg5 harg5 arg6 harg6 arg7 harg7 arg8 harg8 arg9 harg9 P G G7 G9 8 (ix2 (0 : Fin 1) j)
      = min (arg9.view.read (Elt Ideal) G9 (ix2 (0 : Fin 1) j)) (⨅ r : Fin 2048, tileDist P G r j) := by
  rw [colsAt_eq c i arg3 harg3 arg4 harg4 arg5 harg5 arg6 harg6 arg7 harg7 arg8 harg8 arg9 harg9 P G G7 G9 8 le_rfl j]
  exact congrArg (min _) (iInf_congr fun r => iInf_pos (by have := r.isLt; omega))

end Trips

end Cert.Chamfer.Kernel

end
-- ==== Proof.Point.lean ====
/-
  What one grid point leaves behind, over the extended reals. The point meets a stretch P of 2048 predicted points with a
  tile G of 2048 ground-truth points. Whatever the running row minima held on entry, every row r leaves met with the
  infimum over the tile of the squared distances from predicted point r. The tile's own column minima start at +∞ and
  end at the infimum over the stretch; they are then met into the tile's stretch of the whole-cloud column minima,
  the other stretches keeping what they held.
-/
import proofs.«100491_j8641474200219_2_alg».proof.Proof.Loop

set_option maxRecDepth 16384

noncomputable section

namespace Cert.Chamfer.Kernel

open Cert.KernelIdeal Cert.KernelIdeal.Gen Idealize.ShloMosaic Idealize.ShloMosaic.ValueIdx Idealize.ShloMosaic.TcCoe
open Idealize.SL.Sem

section Point

variable (c : Dev nD) (i : grid0.Coords) (arg3 : Memref sig .tc .vmem S1x3x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048x1 .f32) (harg7 : arg7.IsWhole) (arg8 : Memref sig .tc .vmem S1x8192 .f32) (harg8 : arg8.IsWhole) (arg9 : Memref sig .tc .vmem S1x2048 .f32) (harg9 : arg9.IsWhole)
variable (P G : Vec Ideal S1x3x2048 .f32)

/-- A whole-buffer load of contents that read `X` reads `X`. -/
theorem load_whole {s : Shape} (M : Memref sig .tc .vmem s .f32) (hM : M.IsWhole) (X : s.Idx → Elt Ideal .f32) (off : Fin s.rank → ℕ)
    (hoff : off = fun _ => 0) (inb : ∀ a, off a + s.size a ≤ s.size a) :
    View.readAt (Elt Ideal) M.view (Rect.unit (s := s) off s.size inb).toLoadRect (hM.unread X) = X := by
  rw [View.readAt_eq_ld, hM.read_unread]
  exact View.ld_unit_zero (Val := Elt Ideal) (e := .f32) hoff inb X

/-- The tile's column minima before the first trip: +∞ everywhere. -/
abbrev tileTop : BufTy.Contents (Elt Ideal) arg9.view.ty :=
  arg9.view.writes (Elt Ideal) arg9.view.junk [⟨Rect.unit (s := S1x2048) ![0, 0] S1x2048.size inb_S1x2048_S1x2048_0_0, k0_pay7 (F := Ideal)⟩]

theorem tileTop_read (j : Fin 2048) : arg9.view.read (Elt Ideal) (tileTop arg9) (ix2 (0 : Fin 1) j) = ⊤ := by
  refine (View.read_writes_cons_unit_of_mem arg9.view arg9.view.junk inb_S1x2048_S1x2048_0_0 _ _ (ix2 (0 : Fin 1) j) (ix2 (0 : Fin 1) j) rfl
    (fun a => match a with
      | ⟨0, _⟩ => by show (0 : ℕ) = 0 + 0; rfl
      | ⟨1, _⟩ => by show j.val = 0 + j.val; omega)).trans ?_
  rw [fill_tile]

/-- The pieces the eight trips store, from row minima `G7` on entry. -/
abbrev tripsOf (G7 : BufTy.Contents (Elt Ideal) arg7.view.ty) :
    List (View.Piece (Elt Ideal) S2048x1 .f32) × List (View.Piece (Elt Ideal) S1x2048 .f32) :=
  pb_k0_t1 (F := Ideal) Variants.none c none i arg3 harg3 arg4 harg4 arg5 harg5 arg6 harg6 arg7 harg7 arg8 harg8 arg9 harg9
    G (harg3.unread P) G7 (tileTop arg9) (Scf.trips k0_t1_loop.lb k0_t1_loop.ub k0_t1_loop.st)

/-- After the eight trips, row by row: what the row held met with its infimum over the tile. -/
theorem rows_after (G7 : BufTy.Contents (Elt Ideal) arg7.view.ty) (r : Fin 2048) :
    arg7.view.read (Elt Ideal) (arg7.view.writes (Elt Ideal) G7 (tripsOf c i arg3 harg3 arg4 harg4 arg5 harg5 arg6 harg6 arg7 harg7 arg8 harg8 arg9 harg9 P G G7).1) (ix2 r (0 : Fin 1))
      = min (arg7.view.read (Elt Ideal) G7 (ix2 r (0 : Fin 1))) (⨅ j : Fin 2048, tileDist P G r j) := by
  have h8 : Scf.trips k0_t1_loop.lb k0_t1_loop.ub k0_t1_loop.st = 8 := trips_eq
  show arg7.view.read (Elt Ideal) (arg7.view.writes (Elt Ideal) G7 (pb_k0_t1 (F := Ideal) Variants.none c none i arg3 harg3 arg4 harg4 arg5 harg5 arg6 harg6 arg7 harg7 arg8 harg8 arg9 harg9
    G (harg3.unread P) G7 (tileTop arg9) (Scf.trips k0_t1_loop.lb k0_t1_loop.ub k0_t1_loop.st)).1) (ix2 r (0 : Fin 1)) = _
  rw [h8]
  exact rows_done c i arg3 harg3 arg4 harg4 arg5 harg5 arg6 harg6 arg7 harg7 arg8 harg8 arg9 harg9 P G G7 (tileTop arg9) r

/-- The tile's column minima as the point reads them back after the eight trips: the infimum over the stretch. -/
theorem tile_after (G7 : BufTy.Contents (Elt Ideal) arg7.view.ty) (j : Fin 2048) :
    View.readAt (Elt Ideal) arg9.view (Rect.unit (s := S1x2048) ![0, 0] S1x2048.size inb_S1x2048_S1x2048_0_0).toLoadRect
        (arg9.view.writes (Elt Ideal) arg9.view.junk
          ((tripsOf c i arg3 harg3 arg4 harg4 arg5 harg5 arg6 harg6 arg7 harg7 arg8 harg8 arg9 harg9 P G G7).2 ++ [⟨Rect.unit (s := S1x2048) ![0, 0] S1x2048.size inb_S1x2048_S1x2048_0_0, k0_pay7 (F := Ideal)⟩]))
        (ix2 (0 : Fin 1) j)
      = ⨅ r : Fin 2048, tileDist P G r j := by
  have h8 : Scf.trips k0_t1_loop.lb k0_t1_loop.ub k0_t1_loop.st = 8 := trips_eq
  refine (readAt_unit_apply arg9.view _ inb_S1x2048_S1x2048_0_0 rfl (ix2 (0 : Fin 1) j) (ix2 (0 : Fin 1) j)
    (fun a => match a with
      | ⟨0, _⟩ => by show (0 : ℕ) = 0 + 0; rfl
      | ⟨1, _⟩ => by show j.val = 0 + j.val; omega)).trans ?_
  rw [View.writes_append]
  show arg9.view.read (Elt Ideal) (arg9.view.writes (Elt Ideal) (tileTop arg9) (pb_k0_t1 (F := Ideal) Variants.none c none i arg3 harg3 arg4 harg4 arg5 harg5 arg6 harg6 arg7 harg7 arg8 harg8 arg9 harg9
    G (harg3.unread P) G7 (tileTop arg9) (Scf.trips k0_t1_loop.lb k0_t1_loop.ub k0_t1_loop.st)).2) (ix2 (0 : Fin 1) j) = _
  rw [h8]
  refine (cols_done c i arg3 harg3 arg4 harg4 arg5 harg5 arg6 harg6 arg7 harg7 arg8 harg8 arg9 harg9 P G G7 (tileTop arg9) j).trans ?_
  rw [tileTop_read, min_eq_right le_top]

/-- The store that meets the tile's column minima into the whole-cloud column minima `B8`. -/
abbrev mergePiece (B8 : BufTy.Contents (Elt Ideal) arg8.view.ty) (G7 : BufTy.Contents (Elt Ideal) arg7.view.ty) :
    View.Piece (Elt Ideal) S1x8192 .f32 :=
  ⟨Rect.unit (s := S1x8192) (k0_off3 i) S1x2048.size (k0_off3_inb i),
    k0_pay10 (View.readAt (Elt Ideal) arg8.view (Rect.unit (s := S1x8192) (k0_off3 i) S1x2048.size (k0_off3_inb i)).toLoadRect B8)
      (View.readAt (Elt Ideal) arg9.view (Rect.unit (s := S1x2048) ![0, 0] S1x2048.size inb_S1x2048_S1x2048_0_0).toLoadRect
        (arg9.view.writes (Elt Ideal) arg9.view.junk
          ((tripsOf c i arg3 harg3 arg4 harg4 arg5 harg5 arg6 harg6 arg7 harg7 arg8 harg8 arg9 harg9 P G G7).2 ++ [⟨Rect.unit (s := S1x2048) ![0, 0] S1x2048.size inb_S1x2048_S1x2048_0_0, k0_pay7 (F := Ideal)⟩])))⟩

/-- A column of the point's tile: what it held met with the infimum over the stretch. -/
theorem merge_in (B8 : BufTy.Contents (Elt Ideal) arg8.view.ty) (G7 : BufTy.Contents (Elt Ideal) arg7.view.ty)
    (jj : Fin 2048) (j : Fin 8192) (hj : j.val = 2048 * (i 2).val + jj.val) :
    arg8.view.read (Elt Ideal) (arg8.view.writes (Elt Ideal) B8 [mergePiece c i arg3 harg3 arg4 harg4 arg5 harg5 arg6 harg6 arg7 harg7 arg8 harg8 arg9 harg9 P G B8 G7]) (ix2 (0 : Fin 1) j)
      = min (arg8.view.read (Elt Ideal) B8 (ix2 (0 : Fin 1) j)) (⨅ r : Fin 2048, tileDist P G r jj) := by
  refine (View.read_writes_cons_unit_of_mem arg8.view B8 (k0_off3_inb i) _ _ (ix2 (0 : Fin 1) j) (ix2 (0 : Fin 1) jj) (k0_off3_eq i)
    (fun a => match a with
      | ⟨0, _⟩ => by show (0 : ℕ) = 0 + 0; rfl
      | ⟨1, _⟩ => by show j.val = 2048 * (i 2).val + jj.val; exact hj)).trans ?_
  refine (merge_apply _ _ jj).trans ?_
  refine congrArg₂ min ?_ ?_
  · exact readAt_unit_apply arg8.view B8 (k0_off3_inb i) (k0_off3_eq i) (ix2 (0 : Fin 1) jj) (ix2 (0 : Fin 1) j)
      (fun a => match a with
        | ⟨0, _⟩ => by show (0 : ℕ) = 0 + 0; rfl
        | ⟨1, _⟩ => by show j.val = 2048 * (i 2).val + jj.val; exact hj)
  · exact tile_after c i arg3 harg3 arg4 harg4 arg5 harg5 arg6 harg6 arg7 harg7 arg8 harg8 arg9 harg9 P G G7 jj

/-- A column outside the point's tile keeps what it held. -/
theorem merge_out (B8 : BufTy.Contents (Elt Ideal) arg8.view.ty) (G7 : BufTy.Contents (Elt Ideal) arg7.view.ty)
    (j : Fin 8192) (hj : j.val < 2048 * (i 2).val ∨ 2048 * (i 2).val + 2048 ≤ j.val) :
    arg8.view.read (Elt Ideal) (arg8.view.writes (Elt Ideal) B8 [mergePiece c i arg3 harg3 arg4 harg4 arg5 harg5 arg6 harg6 arg7 harg7 arg8 harg8 arg9 harg9 P G B8 G7]) (ix2 (0 : Fin 1) j)
      = arg8.view.read (Elt Ideal) B8 (ix2 (0 : Fin 1) j) :=
  View.read_writes_cons_unit_of_not_mem arg8.view B8 (k0_off3_inb i) _ _ (ix2 (0 : Fin 1) j) (k0_off3_eq i) (1 : Fin 2)
    (by show j.val < 2048 * (i 2).val ∨ 2048 * (i 2).val + 2048 ≤ j.val; exact hj)

end Point

/-- The running row minima after a point: each row met with its infimum over the tile. -/
def rowsNext (P G : Vec Ideal S1x3x2048 .f32) (prev : S2048x1.Idx → EReal) (r : Fin 2048) : EReal :=
  min (prev (ix2 r (0 : Fin 1))) (⨅ j : Fin 2048, tileDist P G r j)

/-- The whole-cloud column minima after a point that works on ground-truth stretch `kj`: the columns of that stretch met
    with their infimum over the predicted stretch, the others as they were. -/
def colsNext (P G : Vec Ideal S1x3x2048 .f32) (kj : ℕ) (prev : S1x8192.Idx → EReal) (j : Fin 8192) : EReal :=
  if h : 2048 * kj ≤ j.val ∧ j.val < 2048 * kj + 2048 then
    min (prev (ix2 (0 : Fin 1) j)) (⨅ r : Fin 2048, tileDist P G r (⟨j.val - 2048 * kj, by omega⟩ : Fin 2048))
  else prev (ix2 (0 : Fin 1) j)

section PointRead

variable (c : Dev nD) (i : grid0.Coords) (arg3 : Memref sig .tc .vmem S1x3x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048x1 .f32) (harg7 : arg7.IsWhole) (arg8 : Memref sig .tc .vmem S1x8192 .f32) (harg8 : arg8.IsWhole) (arg9 : Memref sig .tc .vmem S1x2048 .f32) (harg9 : arg9.IsWhole)
variable (P G : Vec Ideal S1x3x2048 .f32)

theorem rows_read (G7 : BufTy.Contents (Elt Ideal) arg7.view.ty) (r : Fin 2048) :
    arg7.view.read (Elt Ideal) (arg7.view.writes (Elt Ideal) G7 (tripsOf c i arg3 harg3 arg4 harg4 arg5 harg5 arg6 harg6 arg7 harg7 arg8 harg8 arg9 harg9 P G G7).1) (ix2 r (0 : Fin 1))
      = rowsNext P G (arg7.view.read (Elt Ideal) G7) r :=
  rows_after c i arg3 harg3 arg4 harg4 arg5 harg5 arg6 harg6 arg7 harg7 arg8 harg8 arg9 harg9 P G G7 r

theorem merge_read (B8 : BufTy.Contents (Elt Ideal) arg8.view.ty) (G7 : BufTy.Contents (Elt Ideal) arg7.view.ty) (j : Fin 8192) :
    arg8.view.read (Elt Ideal) (arg8.view.writes (Elt Ideal) B8 [mergePiece c i arg3 harg3 arg4 harg4 arg5 harg5 arg6 harg6 arg7 harg7 arg8 harg8 arg9 harg9 P G B8 G7]) (ix2 (0 : Fin 1) j)
      = colsNext P G (i 2).val (arg8.view.read (Elt Ideal) B8) j := by
  unfold colsNext
  by_cases h : 2048 * (i 2).val ≤ j.val ∧ j.val < 2048 * (i 2).val + 2048
  · rw [dif_pos h]
    exact merge_in c i arg3 harg3 arg4 harg4 arg5 harg5 arg6 harg6 arg7 harg7 arg8 harg8 arg9 harg9 P G B8 G7 (⟨j.val - 2048 * (i 2).val, by omega⟩ : Fin 2048) j
      (by show j.val = 2048 * (i 2).val + (j.val - 2048 * (i 2).val); omega)
  · rw [dif_neg h]
    exact merge_out c i arg3 harg3 arg4 harg4 arg5 harg5 arg6 harg6 arg7 harg7 arg8 harg8 arg9 harg9 P G B8 G7 j (by omega)

end PointRead

end Cert.Chamfer.Kernel

end
-- ==== Proof.CaseB.lean ====
/-
  A point in the middle of a sweep over the ground-truth stretches (neither the first nor the last stretch): the running
  row minima take in the tile, the whole-cloud column minima take in the tile's column minima on the tile's stretch.
-/
import proofs.«100491_j8641474200219_2_alg».proof.Proof.Gen.KernelIdeal.Frame
import proofs.«100491_j8641474200219_2_alg».proof.Proof.Point

set_option maxRecDepth 16384

noncomputable section

namespace Cert.Chamfer.Kernel

open Cert.KernelIdeal Cert.KernelIdeal.Gen Idealize.ShloMosaic Idealize.ShloMosaic.ValueIdx Idealize.ShloMosaic.TcCoe
open Idealize.SL.Sem

variable (c : Dev nD) (i : grid0.Coords) (arg3 : Memref sig .tc .vmem S1x3x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048x1 .f32) (harg7 : arg7.IsWhole) (arg8 : Memref sig .tc .vmem S1x8192 .f32) (harg8 : arg8.IsWhole) (arg9 : Memref sig .tc .vmem S1x2048 .f32) (harg9 : arg9.IsWhole)

theorem tile_load (x1 : Vec Ideal S1x3x2048 .f32) :
    View.readAt (Elt Ideal) arg4.view (Rect.unit (s := S1x3x2048) ![0, 0, 0] S1x3x2048.size inb_S1x3x2048_S1x3x2048_0_0_0).toLoadRect (harg4.unread x1) = x1 :=
  load_whole arg4 harg4 x1 ![0, 0, 0] (by funext a; match a with | ⟨0, _⟩ => rfl | ⟨1, _⟩ => rfl | ⟨2, _⟩ => rfl : (![0, 0, 0] : Fin 3 → ℕ) = fun _ => 0) inb_S1x3x2048_S1x3x2048_0_0_0

variable (hc0 : ¬cond0_0 i) (hc1 : ¬cond0_1 i) (hc2 : ¬cond0_2 i) (hc3 : ¬cond0_3 i)
variable (x0 x1 : Vec Ideal S1x3x2048 .f32) (xs0 : Vec Ideal S2048x1 .f32) (xs1 : Vec Ideal S1x8192 .f32)

theorem caseB_cols (j : Fin 8192) :
    sout0_B_1 (F := Ideal) c i arg3 harg3 arg4 harg4 arg5 harg5 arg6 harg6 arg7 harg7 arg8 harg8 arg9 harg9 hc0 hc1 hc2 hc3 x0 x1 xs0 xs1 (ix2 (0 : Fin 1) j)
      = colsNext x0 x1 (i 2).val xs1 j := by
  unfold sout0_B_1
  unfold kernelRun0_B
  dsimp only
  sl_unfold_run_names
  rw [tile_load arg4 harg4 x1]
  refine (merge_read c i arg3 harg3 arg4 harg4 arg5 harg5 arg6 harg6 arg7 harg7 arg8 harg8 arg9 harg9 x0 x1 (harg8.unread xs1) (harg7.unread xs0) j).trans ?_
  rw [harg8.read_unread]

theorem caseB_rows (r : Fin 2048) :
    sout0_B_0 (F := Ideal) c i arg3 harg3 arg4 harg4 arg5 harg5 arg6 harg6 arg7 harg7 arg8 harg8 arg9 harg9 hc0 hc1 hc2 hc3 x0 x1 xs0 xs1 (ix2 r (0 : Fin 1))
      = rowsNext x0 x1 xs0 r := by
  unfold sout0_B_0
  rw [View.read_writes_of_cover VS0_0 _ arg7.view (harg7.unread xs0) _ (scover0_B_0 (F := Ideal) c i arg3 harg3 arg4 harg4 arg5 harg5 arg6 harg6 arg7 harg7 arg8 harg8 arg9 harg9 hc0 hc1 hc2 hc3 x0 x1 xs0 xs1)]
  unfold kernelRun0_B
  dsimp only
  sl_unfold_run_names
  rw [tile_load arg4 harg4 x1]
  refine (rows_read c i arg3 harg3 arg4 harg4 arg5 harg5 arg6 harg6 arg7 harg7 arg8 harg8 arg9 harg9 x0 x1 (harg7.unread xs0) r).trans ?_
  rw [harg7.read_unread]

end Cert.Chamfer.Kernel

end
-- ==== Proof.CaseA.lean ====
/-
  The first point of a batch entry: both carried buffers are filled with +∞ before they are used. So the running row
  minima leave the point as the tile's row infima met with +∞, and the whole-cloud column minima as +∞ everywhere
  except on the tile's stretch, where they are the tile's column infima met with +∞.
-/
import proofs.«100491_j8641474200219_2_alg».proof.Proof.Gen.KernelIdeal.Frame
import proofs.«100491_j8641474200219_2_alg».proof.Proof.Point
import proofs.«100491_j8641474200219_2_alg».proof.Proof.CaseB

set_option maxRecDepth 16384

noncomputable section

namespace Cert.Chamfer.Kernel

open Cert.KernelIdeal Cert.KernelIdeal.Gen Idealize.ShloMosaic Idealize.ShloMosaic.ValueIdx Idealize.ShloMosaic.TcCoe
open Idealize.SL.Sem

variable (c : Dev nD) (i : grid0.Coords) (arg3 : Memref sig .tc .vmem S1x3x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048x1 .f32) (harg7 : arg7.IsWhole) (arg8 : Memref sig .tc .vmem S1x8192 .f32) (harg8 : arg8.IsWhole) (arg9 : Memref sig .tc .vmem S1x2048 .f32) (harg9 : arg9.IsWhole)

/-- The running row minima right after the fill: +∞ in every row. -/
theorem rows_filled (r : Fin 2048) :
    arg7.view.read (Elt Ideal)
        (arg7.view.writes (Elt Ideal) arg7.view.junk [⟨Rect.unit (s := S2048x1) ![0, 0] S2048x1.size inb_S2048x1_S2048x1_0_0, k0_pay5 (F := Ideal)⟩])
        (ix2 r (0 : Fin 1)) = (⊤ : EReal) := by
  refine (View.read_writes_cons_unit_of_mem arg7.view arg7.view.junk inb_S2048x1_S2048x1_0_0 _ _ (ix2 r (0 : Fin 1)) (ix2 r (0 : Fin 1)) rfl
    (fun a => match a with
      | ⟨0, _⟩ => by show r.val = 0 + r.val; omega
      | ⟨1, _⟩ => by show (0 : ℕ) = 0 + 0; rfl)).trans ?_
  rw [fill_rows]

/-- The whole-cloud column minima right after the fill: +∞ in every column. -/
theorem cols_filled (j : Fin 8192) :
    arg8.view.read (Elt Ideal)
        (arg8.view.writes (Elt Ideal) arg8.view.junk [⟨Rect.unit (s := S1x8192) ![0, 0] S1x8192.size inb_S1x8192_S1x8192_0_0, k0_pay6 (F := Ideal)⟩])
        (ix2 (0 : Fin 1) j) = (⊤ : EReal) := by
  refine (View.read_writes_cons_unit_of_mem arg8.view arg8.view.junk inb_S1x8192_S1x8192_0_0 _ _ (ix2 (0 : Fin 1) j) (ix2 (0 : Fin 1) j) rfl
    (fun a => match a with
      | ⟨0, _⟩ => by show (0 : ℕ) = 0 + 0; rfl
      | ⟨1, _⟩ => by show j.val = 0 + j.val; omega)).trans ?_
  rw [fill_cols]

/-- The row minima after a point depend on what row r held before only. -/
theorem rowsNext_congr (P G : Vec Ideal S1x3x2048 .f32) (p q : S2048x1.Idx → EReal) (r : Fin 2048)
    (h : p (ix2 r (0 : Fin 1)) = q (ix2 r (0 : Fin 1))) : rowsNext P G p r = rowsNext P G q r := by
  unfold rowsNext
  rw [h]

/-- The column minima after a point depend on what column j held before only. -/
theorem colsNext_congr (P G : Vec Ideal S1x3x2048 .f32) (kj : ℕ) (p q : S1x8192.Idx → EReal) (j : Fin 8192)
    (h : p (ix2 (0 : Fin 1) j) = q (ix2 (0 : Fin 1) j)) : colsNext P G kj p j = colsNext P G kj q j := by
  unfold colsNext
  rw [h]

variable (hc0 : cond0_0 i) (hc1 : cond0_1 i) (hc2 : ¬cond0_2 i) (hc3 : ¬cond0_3 i)
variable (x0 x1 : Vec Ideal S1x3x2048 .f32)

theorem caseA_rows (r : Fin 2048) :
    sout0_A_0 (F := Ideal) c i arg3 harg3 arg4 harg4 arg5 harg5 arg6 harg6 arg7 harg7 arg8 harg8 arg9 harg9 hc0 hc1 hc2 hc3 x0 x1 (ix2 r (0 : Fin 1))
      = rowsNext x0 x1 (fun _ => (⊤ : EReal)) r := by
  unfold sout0_A_0
  rw [View.read_writes_of_cover VS0_0 _ arg7.view arg7.view.junk _ (scover0_A_0 (F := Ideal) c i arg3 harg3 arg4 harg4 arg5 harg5 arg6 harg6 arg7 harg7 arg8 harg8 arg9 harg9 hc0 hc1 hc2 hc3 x0 x1)]
  unfold kernelRun0_A
  dsimp only
  sl_unfold_run_names
  rw [tile_load arg4 harg4 x1, View.writes_append]
  refine (rows_read c i arg3 harg3 arg4 harg4 arg5 harg5 arg6 harg6 arg7 harg7 arg8 harg8 arg9 harg9 x0 x1
    (arg7.view.writes (Elt Ideal) arg7.view.junk [⟨Rect.unit (s := S2048x1) ![0, 0] S2048x1.size inb_S2048x1_S2048x1_0_0, k0_pay5 (F := Ideal)⟩]) r).trans ?_
  exact rowsNext_congr x0 x1 _ _ r (rows_filled arg7 r)

theorem caseA_cols (j : Fin 8192) :
    sout0_A_1 (F := Ideal) c i arg3 harg3 arg4 harg4 arg5 harg5 arg6 harg6 arg7 harg7 arg8 harg8 arg9 harg9 hc0 hc1 hc2 hc3 x0 x1 (ix2 (0 : Fin 1) j)
      = colsNext x0 x1 (i 2).val (fun _ => (⊤ : EReal)) j := by
  unfold sout0_A_1
  rw [View.read_writes_of_cover VS0_1 _ arg8.view arg8.view.junk _ (scover0_A_1 (F := Ideal) c i arg3 harg3 arg4 harg4 arg5 harg5 arg6 harg6 arg7 harg7 arg8 harg8 arg9 harg9 hc0 hc1 hc2 hc3 x0 x1)]
  unfold kernelRun0_A
  dsimp only
  sl_unfold_run_names
  rw [tile_load arg4 harg4 x1]
  refine (merge_read c i arg3 harg3 arg4 harg4 arg5 harg5 arg6 harg6 arg7 harg7 arg8 harg8 arg9 harg9 x0 x1
    (arg8.view.writes (Elt Ideal) arg8.view.junk [⟨Rect.unit (s := S1x8192) ![0, 0] S1x8192.size inb_S1x8192_S1x8192_0_0, k0_pay6 (F := Ideal)⟩])
    (arg7.view.writes (Elt Ideal) arg7.view.junk [⟨Rect.unit (s := S2048x1) ![0, 0] S2048x1.size inb_S2048x1_S2048x1_0_0, k0_pay5 (F := Ideal)⟩]) j).trans ?_
  exact colsNext_congr x0 x1 (i 2).val _ _ j (cols_filled arg8 j)

end Cert.Chamfer.Kernel

end
-- ==== Proof.CaseC.lean ====
/-
  The last ground-truth stretch of a predicted stretch that is not the last of its batch entry: the running row minima
  take in the tile and are written out to the first output's block; the whole-cloud column minima take in the tile's
  column minima on the tile's stretch.
-/
import proofs.«100491_j8641474200219_2_alg».proof.Proof.Gen.KernelIdeal.Frame
import proofs.«100491_j8641474200219_2_alg».proof.Proof.Point
import proofs.«100491_j8641474200219_2_alg».proof.Proof.CaseB

set_option maxRecDepth 16384

noncomputable section

namespace Cert.Chamfer.Kernel

open Cert.KernelIdeal Cert.KernelIdeal.Gen Idealize.ShloMosaic Idealize.ShloMosaic.ValueIdx Idealize.ShloMosaic.TcCoe
open Idealize.SL.Sem

variable (c : Dev nD) (i : grid0.Coords) (arg3 : Memref sig .tc .vmem S1x3x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048x1 .f32) (harg7 : arg7.IsWhole) (arg8 : Memref sig .tc .vmem S1x8192 .f32) (harg8 : arg8.IsWhole) (arg9 : Memref sig .tc .vmem S1x2048 .f32) (harg9 : arg9.IsWhole)

variable (hc0 : ¬cond0_0 i) (hc1 : ¬cond0_1 i) (hc2 : cond0_2 i) (hc3 : ¬cond0_3 i)
variable (x0 x1 : Vec Ideal S1x3x2048 .f32) (xs0 : Vec Ideal S2048x1 .f32) (xs1 : Vec Ideal S1x8192 .f32)

/-- The whole-cloud column minima after the point. -/
theorem caseC_cols (j : Fin 8192) :
    sout0_C_1 (F := Ideal) c i arg3 harg3 arg4 harg4 arg5 harg5 arg6 harg6 arg7 harg7 arg8 harg8 arg9 harg9 hc0 hc1 hc2 hc3 x0 x1 xs0 xs1 (ix2 (0 : Fin 1) j)
      = colsNext x0 x1 (i 2).val xs1 j := by
  unfold sout0_C_1
  unfold kernelRun0_C
  dsimp only
  sl_unfold_run_names
  rw [tile_load arg4 harg4 x1]
  refine (merge_read c i arg3 harg3 arg4 harg4 arg5 harg5 arg6 harg6 arg7 harg7 arg8 harg8 arg9 harg9 x0 x1 (harg8.unread xs1) (harg7.unread xs0) j).trans ?_
  rw [harg8.read_unread]

/-- The running row minima after the point. -/
theorem caseC_rows (r : Fin 2048) :
    sout0_C_0 (F := Ideal) c i arg3 harg3 arg4 harg4 arg5 harg5 arg6 harg6 arg7 harg7 arg8 harg8 arg9 harg9 hc0 hc1 hc2 hc3 x0 x1 xs0 xs1 (ix2 r (0 : Fin 1))
      = rowsNext x0 x1 xs0 r := by
  unfold sout0_C_0
  rw [View.read_writes_of_cover VS0_0 _ arg7.view (harg7.unread xs0) _ (scover0_C_0 (F := Ideal) c i arg3 harg3 arg4 harg4 arg5 harg5 arg6 harg6 arg7 harg7 arg8 harg8 arg9 harg9 hc0 hc1 hc2 hc3 x0 x1 xs0 xs1)]
  unfold kernelRun0_C
  dsimp only
  sl_unfold_run_names
  rw [tile_load arg4 harg4 x1]
  refine (rows_read c i arg3 harg3 arg4 harg4 arg5 harg5 arg6 harg6 arg7 harg7 arg8 harg8 arg9 harg9 x0 x1 (harg7.unread xs0) r).trans ?_
  rw [harg7.read_unread]

/-- The first output's block is the running row minima after the point. -/
theorem caseC_out (r : Fin 2048) :
    out0_C_2 (F := Ideal) c i arg3 harg3 arg4 harg4 arg5 harg5 arg6 harg6 arg7 harg7 arg8 harg8 arg9 harg9 hc0 hc1 hc2 hc3 x0 x1 xs0 xs1 (ix3 (0 : Fin 1) (0 : Fin 1) r)
      = rowsNext x0 x1 xs0 r := by
  unfold out0_C_2
  rw [View.read_writes_of_cover VO0_2 _ arg5.view arg5.view.junk _ (cover0_C_2 (F := Ideal) c i arg3 harg3 arg4 harg4 arg5 harg5 arg6 harg6 arg7 harg7 arg8 harg8 arg9 harg9 hc0 hc1 hc2 hc3 x0 x1 xs0 xs1)]
  unfold kernelRun0_C
  dsimp only
  sl_unfold_run_names
  rw [tile_load arg4 harg4 x1]
  refine (View.read_writes_cons_unit_of_mem arg5.view arg5.view.junk inb_S1x1x2048_S1x1x2048_0_0_0 _ _ (ix3 (0 : Fin 1) (0 : Fin 1) r) (ix3 (0 : Fin 1) (0 : Fin 1) r) rfl
    (fun a => match a with
      | ⟨0, _⟩ => by show (0 : ℕ) = 0 + 0; rfl
      | ⟨1, _⟩ => by show (0 : ℕ) = 0 + 0; rfl
      | ⟨2, _⟩ => by show r.val = 0 + r.val; omega)).trans ?_
  refine (rows_out_apply _ r).trans ?_
  refine (readAt_unit_apply arg7.view _ inb_S2048x1_S2048x1_0_0 rfl (ix2 r (0 : Fin 1)) (ix2 r (0 : Fin 1))
    (fun a => match a with
      | ⟨0, _⟩ => by show r.val = 0 + r.val; omega
      | ⟨1, _⟩ => by show (0 : ℕ) = 0 + 0; rfl)).trans ?_
  refine (rows_read c i arg3 harg3 arg4 harg4 arg5 harg5 arg6 harg6 arg7 harg7 arg8 harg8 arg9 harg9 x0 x1 (harg7.unread xs0) r).trans ?_
  rw [harg7.read_unread]

end Cert.Chamfer.Kernel
end
-- ==== Proof.CaseD.lean ====
/-
  The first ground-truth stretch of a later predicted stretch: the running row minima are filled with +∞ before they
  are used, the whole-cloud column minima are carried over from the point before. So the row minima leave the point as
  the tile's row infima met with +∞, and the column minima as what they held, met on the tile's stretch with the
  tile's column infima.
-/
import proofs.«100491_j8641474200219_2_alg».proof.Proof.Gen.KernelIdeal.Frame
import proofs.«100491_j8641474200219_2_alg».proof.Proof.Point
import proofs.«100491_j8641474200219_2_alg».proof.Proof.CaseB

set_option maxRecDepth 16384

noncomputable section

namespace Cert.Chamfer.Kernel

open Cert.KernelIdeal Cert.KernelIdeal.Gen Idealize.ShloMosaic Idealize.ShloMosaic.ValueIdx Idealize.ShloMosaic.TcCoe
open Idealize.SL.Sem

variable (c : Dev nD) (i : grid0.Coords) (arg3 : Memref sig .tc .vmem S1x3x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048x1 .f32) (harg7 : arg7.IsWhole) (arg8 : Memref sig .tc .vmem S1x8192 .f32) (harg8 : arg8.IsWhole) (arg9 : Memref sig .tc .vmem S1x2048 .f32) (harg9 : arg9.IsWhole)

/-- The running row minima right after the fill: +∞ in every row. -/
private theorem rows_filled_first (r : Fin 2048) :
    arg7.view.read (Elt Ideal)
        (arg7.view.writes (Elt Ideal) arg7.view.junk [⟨Rect.unit (s := S2048x1) ![0, 0] S2048x1.size inb_S2048x1_S2048x1_0_0, k0_pay5 (F := Ideal)⟩])
        (ix2 r (0 : Fin 1)) = (⊤ : EReal) := by
  refine (View.read_writes_cons_unit_of_mem arg7.view arg7.view.junk inb_S2048x1_S2048x1_0_0 _ _ (ix2 r (0 : Fin 1)) (ix2 r (0 : Fin 1)) rfl
    (fun a => match a with
      | ⟨0, _⟩ => by show r.val = 0 + r.val; omega
      | ⟨1, _⟩ => by show (0 : ℕ) = 0 + 0; rfl)).trans ?_
  rw [fill_rows]

/-- The row minima after a point depend on what row r held before only. -/
private theorem rowsNext_congr_first (P G : Vec Ideal S1x3x2048 .f32) (p q : S2048x1.Idx → EReal) (r : Fin 2048)
    (h : p (ix2 r (0 : Fin 1)) = q (ix2 r (0 : Fin 1))) : rowsNext P G p r = rowsNext P G q r := by
  unfold rowsNext
  rw [h]

variable (hc0 : cond0_0 i) (hc1 : ¬cond0_1 i) (hc2 : ¬cond0_2 i) (hc3 : ¬cond0_3 i)
variable (x0 x1 : Vec Ideal S1x3x2048 .f32) (xs1 : Vec Ideal S1x8192 .f32)

theorem caseD_rows (r : Fin 2048) :
    sout0_D_0 (F := Ideal) c i arg3 harg3 arg4 harg4 arg5 harg5 arg6 harg6 arg7 harg7 arg8 harg8 arg9 harg9 hc0 hc1 hc2 hc3 x0 x1 xs1 (ix2 r (0 : Fin 1))
      = rowsNext x0 x1 (fun _ => (⊤ : EReal)) r := by
  unfold sout0_D_0
  rw [View.read_writes_of_cover VS0_0 _ arg7.view arg7.view.junk _ (scover0_D_0 (F := Ideal) c i arg3 harg3 arg4 harg4 arg5 harg5 arg6 harg6 arg7 harg7 arg8 harg8 arg9 harg9 hc0 hc1 hc2 hc3 x0 x1 xs1)]
  unfold kernelRun0_D
  dsimp only
  sl_unfold_run_names
  rw [tile_load arg4 harg4 x1, View.writes_append]
  refine (rows_read c i arg3 harg3 arg4 harg4 arg5 harg5 arg6 harg6 arg7 harg7 arg8 harg8 arg9 harg9 x0 x1
    (arg7.view.writes (Elt Ideal) arg7.view.junk [⟨Rect.unit (s := S2048x1) ![0, 0] S2048x1.size inb_S2048x1_S2048x1_0_0, k0_pay5 (F := Ideal)⟩]) r).trans ?_
  exact rowsNext_congr_first x0 x1 _ _ r (rows_filled_first arg7 r)

theorem caseD_cols (j : Fin 8192) :
    sout0_D_1 (F := Ideal) c i arg3 harg3 arg4 harg4 arg5 harg5 arg6 harg6 arg7 harg7 arg8 harg8 arg9 harg9 hc0 hc1 hc2 hc3 x0 x1 xs1 (ix2 (0 : Fin 1) j)
      = colsNext x0 x1 (i 2).val xs1 j := by
  unfold sout0_D_1
  unfold kernelRun0_D
  dsimp only
  sl_unfold_run_names
  rw [tile_load arg4 harg4 x1]
  refine (merge_read c i arg3 harg3 arg4 harg4 arg5 harg5 arg6 harg6 arg7 harg7 arg8 harg8 arg9 harg9 x0 x1 (harg8.unread xs1)
    (arg7.view.writes (Elt Ideal) arg7.view.junk [⟨Rect.unit (s := S2048x1) ![0, 0] S2048x1.size inb_S2048x1_S2048x1_0_0, k0_pay5 (F := Ideal)⟩]) j).trans ?_
  rw [harg8.read_unread]

end Cert.Chamfer.Kernel

end
-- ==== Proof.CaseE.lean ====
/-
  The very last point of a batch entry (the last ground-truth stretch of the last predicted stretch): the running row
  minima take in the tile and are written out to the first output's block; the whole-cloud column minima take in the
  tile's column minima on the tile's stretch and are written out to the second output's block.
-/
import proofs.«100491_j8641474200219_2_alg».proof.Proof.Gen.KernelIdeal.Frame
import proofs.«100491_j8641474200219_2_alg».proof.Proof.Point
import proofs.«100491_j8641474200219_2_alg».proof.Proof.CaseB

set_option maxRecDepth 16384

noncomputable section

namespace Cert.Chamfer.Kernel

open Cert.KernelIdeal Cert.KernelIdeal.Gen Idealize.ShloMosaic Idealize.ShloMosaic.ValueIdx Idealize.ShloMosaic.TcCoe
open Idealize.SL.Sem

variable (c : Dev nD) (i : grid0.Coords) (arg3 : Memref sig .tc .vmem S1x3x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048x1 .f32) (harg7 : arg7.IsWhole) (arg8 : Memref sig .tc .vmem S1x8192 .f32) (harg8 : arg8.IsWhole) (arg9 : Memref sig .tc .vmem S1x2048 .f32) (harg9 : arg9.IsWhole)

variable (hc0 : ¬cond0_0 i) (hc1 : ¬cond0_1 i) (hc2 : cond0_2 i) (hc3 : cond0_3 i)
variable (x0 x1 : Vec Ideal S1x3x2048 .f32) (xs0 : Vec Ideal S2048x1 .f32) (xs1 : Vec Ideal S1x8192 .f32)

/-- The whole-cloud column minima after the point. -/
theorem caseE_cols (j : Fin 8192) :
    sout0_E_1 (F := Ideal) c i arg3 harg3 arg4 harg4 arg5 harg5 arg6 harg6 arg7 harg7 arg8 harg8 arg9 harg9 hc0 hc1 hc2 hc3 x0 x1 xs0 xs1 (ix2 (0 : Fin 1) j)
      = colsNext x0 x1 (i 2).val xs1 j := by
  unfold sout0_E_1
  unfold kernelRun0_E
  dsimp only
  sl_unfold_run_names
  rw [tile_load arg4 harg4 x1]
  refine (merge_read c i arg3 harg3 arg4 harg4 arg5 harg5 arg6 harg6 arg7 harg7 arg8 harg8 arg9 harg9 x0 x1 (harg8.unread xs1) (harg7.unread xs0) j).trans ?_
  rw [harg8.read_unread]

/-- The running row minima after the point. -/
theorem caseE_rows (r : Fin 2048) :
    sout0_E_0 (F := Ideal) c i arg3 harg3 arg4 harg4 arg5 harg5 arg6 harg6 arg7 harg7 arg8 harg8 arg9 harg9 hc0 hc1 hc2 hc3 x0 x1 xs0 xs1 (ix2 r (0 : Fin 1))
      = rowsNext x0 x1 xs0 r := by
  unfold sout0_E_0
  rw [View.read_writes_of_cover VS0_0 _ arg7.view (harg7.unread xs0) _ (scover0_E_0 (F := Ideal) c i arg3 harg3 arg4 harg4 arg5 harg5 arg6 harg6 arg7 harg7 arg8 harg8 arg9 harg9 hc0 hc1 hc2 hc3 x0 x1 xs0 xs1)]
  unfold kernelRun0_E
  dsimp only
  sl_unfold_run_names
  rw [tile_load arg4 harg4 x1]
  refine (rows_read c i arg3 harg3 arg4 harg4 arg5 harg5 arg6 harg6 arg7 harg7 arg8 harg8 arg9 harg9 x0 x1 (harg7.unread xs0) r).trans ?_
  rw [harg7.read_unread]

/-- The first output's block is the running row minima after the point. -/
theorem caseE_out_rows (r : Fin 2048) :
    out0_E_2 (F := Ideal) c i arg3 harg3 arg4 harg4 arg5 harg5 arg6 harg6 arg7 harg7 arg8 harg8 arg9 harg9 hc0 hc1 hc2 hc3 x0 x1 xs0 xs1 (ix3 (0 : Fin 1) (0 : Fin 1) r)
      = rowsNext x0 x1 xs0 r := by
  unfold out0_E_2
  rw [View.read_writes_of_cover VO0_2 _ arg5.view arg5.view.junk _ (cover0_E_2 (F := Ideal) c i arg3 harg3 arg4 harg4 arg5 harg5 arg6 harg6 arg7 harg7 arg8 harg8 arg9 harg9 hc0 hc1 hc2 hc3 x0 x1 xs0 xs1)]
  unfold kernelRun0_E
  dsimp only
  sl_unfold_run_names
  rw [tile_load arg4 harg4 x1]
  refine (View.read_writes_cons_unit_of_mem arg5.view arg5.view.junk inb_S1x1x2048_S1x1x2048_0_0_0 _ _ (ix3 (0 : Fin 1) (0 : Fin 1) r) (ix3 (0 : Fin 1) (0 : Fin 1) r) rfl
    (fun a => match a with
      | ⟨0, _⟩ => by show (0 : ℕ) = 0 + 0; rfl
      | ⟨1, _⟩ => by show (0 : ℕ) = 0 + 0; rfl
      | ⟨2, _⟩ => by show r.val = 0 + r.val; omega)).trans ?_
  refine (rows_out_apply _ r).trans ?_
  refine (readAt_unit_apply arg7.view _ inb_S2048x1_S2048x1_0_0 rfl (ix2 r (0 : Fin 1)) (ix2 r (0 : Fin 1))
    (fun a => match a with
      | ⟨0, _⟩ => by show r.val = 0 + r.val; omega
      | ⟨1, _⟩ => by show (0 : ℕ) = 0 + 0; rfl)).trans ?_
  refine (rows_read c i arg3 harg3 arg4 harg4 arg5 harg5 arg6 harg6 arg7 harg7 arg8 harg8 arg9 harg9 x0 x1 (harg7.unread xs0) r).trans ?_
  rw [harg7.read_unread]

/-- The second output's block is the whole-cloud column minima after the point. -/
theorem caseE_out_cols (j : Fin 8192) :
    out0_E_3 (F := Ideal) c i arg3 harg3 arg4 harg4 arg5 harg5 arg6 harg6 arg7 harg7 arg8 harg8 arg9 harg9 hc0 hc1 hc2 hc3 x0 x1 xs0 xs1 (ix3 (0 : Fin 1) (0 : Fin 1) j)
      = colsNext x0 x1 (i 2).val xs1 j := by
  unfold out0_E_3
  rw [View.read_writes_of_cover VO0_3 _ arg6.view arg6.view.junk _ (cover0_E_3 (F := Ideal) c i arg3 harg3 arg4 harg4 arg5 harg5 arg6 harg6 arg7 harg7 arg8 harg8 arg9 harg9 hc0 hc1 hc2 hc3 x0 x1 xs0 xs1)]
  unfold kernelRun0_E
  dsimp only
  sl_unfold_run_names
  rw [tile_load arg4 harg4 x1]
  refine (View.read_writes_cons_unit_of_mem arg6.view arg6.view.junk inb_S1x1x8192_S1x1x8192_0_0_0 _ _ (ix3 (0 : Fin 1) (0 : Fin 1) j) (ix3 (0 : Fin 1) (0 : Fin 1) j) rfl
    (fun a => match a with
      | ⟨0, _⟩ => by show (0 : ℕ) = 0 + 0; rfl
      | ⟨1, _⟩ => by show (0 : ℕ) = 0 + 0; rfl
      | ⟨2, _⟩ => by show j.val = 0 + j.val; omega)).trans ?_
  refine (cols_out_apply _ j).trans ?_
  refine (readAt_unit_apply arg8.view _ inb_S1x8192_S1x8192_0_0 rfl (ix2 (0 : Fin 1) j) (ix2 (0 : Fin 1) j)
    (fun a => match a with
      | ⟨0, _⟩ => by show (0 : ℕ) = 0 + 0; rfl
      | ⟨1, _⟩ => by show j.val = 0 + j.val; omega)).trans ?_
  refine (merge_read c i arg3 harg3 arg4 harg4 arg5 harg5 arg6 harg6 arg7 harg7 arg8 harg8 arg9 harg9 x0 x1 (harg8.unread xs1) (harg7.unread xs0) j).trans ?_
  rw [harg8.read_unread]

end Cert.Chamfer.Kernel
end
-- ==== Proof.Steps.lean ====
/-
  One step of the sweep: what the two carried minima and the two output blocks hold after grid point t, from what they
  held after the point before — whichever of the five control cases the point falls in.
-/
import proofs.«100491_j8641474200219_2_alg».proof.Proof.CaseA
import proofs.«100491_j8641474200219_2_alg».proof.Proof.CaseB
import proofs.«100491_j8641474200219_2_alg».proof.Proof.CaseC
import proofs.«100491_j8641474200219_2_alg».proof.Proof.CaseD
import proofs.«100491_j8641474200219_2_alg».proof.Proof.CaseE

set_option maxRecDepth 16384

noncomputable section

namespace Cert.Chamfer.Kernel

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (c : Dev nD)

/-- The running row minima after point `n`. -/
abbrev rowsSt (n : ℕ) (hn : n < cfg0.N) : S2048x1.Idx → EReal := (outsAt0 (F := Ideal) m c n hn).2.2.1

/-- The running whole-cloud column minima after point `n`. -/
abbrev colsSt (n : ℕ) (hn : n < cfg0.N) : S1x8192.Idx → EReal := (outsAt0 (F := Ideal) m c n hn).2.2.2

/-- The components of a quadruple known to be a given quadruple. -/
theorem quad_1 {A B C D : Type} {p : A × B × C × D} {a : A} {b : B} {c : C} {d : D} (e : p = (a, b, c, d)) : p.1 = a := by
  subst e; rfl
theorem quad_2 {A B C D : Type} {p : A × B × C × D} {a : A} {b : B} {c : C} {d : D} (e : p = (a, b, c, d)) : p.2.1 = b := by
  subst e; rfl
theorem quad_3 {A B C D : Type} {p : A × B × C × D} {a : A} {b : B} {c : C} {d : D} (e : p = (a, b, c, d)) : p.2.2.1 = c := by
  subst e; rfl
theorem quad_4 {A B C D : Type} {p : A × B × C × D} {a : A} {b : B} {c : C} {d : D} (e : p = (a, b, c, d)) : p.2.2.2 = d := by
  subst e; rfl

/-- The ground-truth stretch of point t. -/
theorem coord2 : ∀ t : Fin grid0.N, (grid0.coords t (2 : Fin 3)).val = t.val % 4 := by decide +kernel

theorem rows_step_first (t : Fin cfg0.N) (ht : t.val < 64) (h0 : t.val % 4 = 0) (r : Fin 2048) :
    rowsSt m c t.val t.isLt (ix2 r (0 : Fin 1)) = rowsNext (iblk (F := Ideal) m c 0 t) (iblk (F := Ideal) m c 1 t) (fun _ => (⊤ : EReal)) r := by
  have h2 : ¬t.val % 4 = 3 := by omega
  have h3 : ¬t.val % 16 = 15 := by omega
  by_cases h1 : t.val % 16 = 0
  · exact (congrFun (quad_3 (outsAt0_A m c t h0 h1 h2 h3)) _).trans (caseA_rows c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk (F := Ideal) m c 0 t) (iblk (F := Ideal) m c 1 t) r)
  · exact (congrFun (quad_3 (outsAt0_D m c t h0 h1 h2 h3)) _).trans (caseD_rows c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (fun h => h3 ((hcond0_3 t).mp h)) (iblk (F := Ideal) m c 0 t) (iblk (F := Ideal) m c 1 t) (outsAt0 (F := Ideal) m c (t.val - 1) (Nat.lt_of_le_of_lt (Nat.sub_le _ _) t.isLt)).2.2.2 r)

theorem rows_step_next (t : Fin cfg0.N) (ht : t.val < 64) (h0 : ¬t.val % 4 = 0) (r : Fin 2048) :
    rowsSt m c t.val t.isLt (ix2 r (0 : Fin 1))
      = rowsNext (iblk (F := Ideal) m c 0 t) (iblk (F := Ideal) m c 1 t) (rowsSt m c (t.val - 1) (Nat.lt_of_le_of_lt (Nat.sub_le _ _) t.isLt)) r := by
  have h1 : ¬t.val % 16 = 0 := by omega
  by_cases h2 : t.val % 4 = 3
  · by_cases h3 : t.val % 16 = 15
    · exact (congrFun (quad_3 (outsAt0_E m c t h0 h1 h2 h3)) _).trans (caseE_rows c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk (F := Ideal) m c 0 t) (iblk (F := Ideal) m c 1 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2 r)
    · exact (congrFun (quad_3 (outsAt0_C m c t h0 h1 h2 h3)) _).trans (caseC_rows c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk (F := Ideal) m c 0 t) (iblk (F := Ideal) m c 1 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2 r)
  · have h3 : ¬t.val % 16 = 15 := by omega
    exact (congrFun (quad_3 (outsAt0_B m c t h0 h1 h2 h3)) _).trans (caseB_rows c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (fun h => h3 ((hcond0_3 t).mp h)) (iblk (F := Ideal) m c 0 t) (iblk (F := Ideal) m c 1 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2 r)

theorem cols_step_first (t : Fin cfg0.N) (ht : t.val < 64) (h1 : t.val % 16 = 0) (j : Fin 8192) :
    colsSt m c t.val t.isLt (ix2 (0 : Fin 1) j) = colsNext (iblk (F := Ideal) m c 0 t) (iblk (F := Ideal) m c 1 t) (grid0.coords t (2 : Fin 3)).val (fun _ => (⊤ : EReal)) j := by
  have h0 : t.val % 4 = 0 := by omega
  have h2 : ¬t.val % 4 = 3 := by omega
  have h3 : ¬t.val % 16 = 15 := by omega
  exact (congrFun (quad_4 (outsAt0_A m c t h0 h1 h2 h3)) _).trans (caseA_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk (F := Ideal) m c 0 t) (iblk (F := Ideal) m c 1 t) j)

theorem cols_step_next (t : Fin cfg0.N) (ht : t.val < 64) (h1 : ¬t.val % 16 = 0) (j : Fin 8192) :
    colsSt m c t.val t.isLt (ix2 (0 : Fin 1) j)
      = colsNext (iblk (F := Ideal) m c 0 t) (iblk (F := Ideal) m c 1 t) (grid0.coords t (2 : Fin 3)).val (colsSt m c (t.val - 1) (Nat.lt_of_le_of_lt (Nat.sub_le _ _) t.isLt)) j := by
  by_cases h0 : t.val % 4 = 0
  · have h2 : ¬t.val % 4 = 3 := by omega
    have h3 : ¬t.val % 16 = 15 := by omega
    exact (congrFun (quad_4 (outsAt0_D m c t h0 h1 h2 h3)) _).trans (caseD_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (fun h => h3 ((hcond0_3 t).mp h)) (iblk (F := Ideal) m c 0 t) (iblk (F := Ideal) m c 1 t) (outsAt0 (F := Ideal) m c (t.val - 1) (Nat.lt_of_le_of_lt (Nat.sub_le _ _) t.isLt)).2.2.2 j)
  · by_cases h2 : t.val % 4 = 3
    · by_cases h3 : t.val % 16 = 15
      · exact (congrFun (quad_4 (outsAt0_E m c t h0 h1 h2 h3)) _).trans (caseE_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk (F := Ideal) m c 0 t) (iblk (F := Ideal) m c 1 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2 j)
      · exact (congrFun (quad_4 (outsAt0_C m c t h0 h1 h2 h3)) _).trans (caseC_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk (F := Ideal) m c 0 t) (iblk (F := Ideal) m c 1 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2 j)
    · have h3 : ¬t.val % 16 = 15 := by omega
      exact (congrFun (quad_4 (outsAt0_B m c t h0 h1 h2 h3)) _).trans (caseB_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (fun h => h3 ((hcond0_3 t).mp h)) (iblk (F := Ideal) m c 0 t) (iblk (F := Ideal) m c 1 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2 j)

/-- At the last ground-truth stretch the first output's block is the row minima just computed. -/
theorem out_rows_step (t : Fin cfg0.N) (ht : t.val < 64) (h2 : t.val % 4 = 3) (r : Fin 2048) :
    ((outsAt0 (F := Ideal) m c t.val t.isLt).1 : S1x1x2048.Idx → EReal) (ix3 (0 : Fin 1) (0 : Fin 1) r)
      = rowsNext (iblk (F := Ideal) m c 0 t) (iblk (F := Ideal) m c 1 t) (rowsSt m c (t.val - 1) (Nat.lt_of_le_of_lt (Nat.sub_le _ _) t.isLt)) r := by
  have h0 : ¬t.val % 4 = 0 := by omega
  have h1 : ¬t.val % 16 = 0 := by omega
  by_cases h3 : t.val % 16 = 15
  · exact (congrFun (quad_1 (outsAt0_E m c t h0 h1 h2 h3)) _).trans (caseE_out_rows c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk (F := Ideal) m c 0 t) (iblk (F := Ideal) m c 1 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2 r)
  · exact (congrFun (quad_1 (outsAt0_C m c t h0 h1 h2 h3)) _).trans (caseC_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk (F := Ideal) m c 0 t) (iblk (F := Ideal) m c 1 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2 r)

/-- At the last point of a batch entry the second output's block is the column minima just computed. -/
theorem out_cols_step (t : Fin cfg0.N) (ht : t.val < 64) (h3 : t.val % 16 = 15) (j : Fin 8192) :
    ((outsAt0 (F := Ideal) m c t.val t.isLt).2.1 : S1x1x8192.Idx → EReal) (ix3 (0 : Fin 1) (0 : Fin 1) j)
      = colsNext (iblk (F := Ideal) m c 0 t) (iblk (F := Ideal) m c 1 t) (grid0.coords t (2 : Fin 3)).val (colsSt m c (t.val - 1) (Nat.lt_of_le_of_lt (Nat.sub_le _ _) t.isLt)) j := by
  have h0 : ¬t.val % 4 = 0 := by omega
  have h1 : ¬t.val % 16 = 0 := by omega
  have h2 : t.val % 4 = 3 := by omega
  exact (congrFun (quad_2 (outsAt0_E m c t h0 h1 h2 h3)) _).trans (caseE_out_cols c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk (F := Ideal) m c 0 t) (iblk (F := Ideal) m c 1 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2 j)

end Cert.Chamfer.Kernel

end
-- ==== Proof.HostPrefix.lean ====
/-
  What the kernel region finds in its two transposed cloud buffers. Before the region is launched the host
  transposes each cloud argument with permutation [0, 2, 1]: a [4, 8192, 3] array becomes a [4, 3, 8192]
  array whose entry at (b, d, i) is the argument's entry at (b, i, d). The first transposed buffer comes from
  the second argument, the second transposed buffer from the first.
-/
import proofs.«100491_j8641474200219_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.Chamfer.HostPrefix

open Cert.KernelIdeal Cert.KernelIdeal.Gen
open Idealize.ShloMosaic Idealize.ShloMosaic.TcCoe Idealize.ShloMosaic.ValueIdx Idealize.SL.Sem
open Idealize.ShloMosaic.StableHlo

/-- The first transposed buffer, as the region finds it, is the transpose of the second argument as launched. -/
theorem V_v0_eq (m : (ℓ : Loc nD τ sig) → Buf (Elt Ideal) ℓ) (c : Dev nD) :
    (V m c main_v0 : S4x3x8192.Idx → EReal)
      = transpose S4x3x8192 [0, 2, 1] (m ((c : Thread nD τ).loc main_arg1)) transposes_S4x8192x3_S4x3x8192_0_2_1 := by
  show StableHlo.after hostOps0 (fun b => m (c, b)) (Proc.devRef .tc main_v0) = _
  after_results

/-- The second transposed buffer, as the region finds it, is the transpose of the first argument as launched. -/
theorem V_v1_eq (m : (ℓ : Loc nD τ sig) → Buf (Elt Ideal) ℓ) (c : Dev nD) :
    (V m c main_v1 : S4x3x8192.Idx → EReal)
      = transpose S4x3x8192 [0, 2, 1] (m ((c : Thread nD τ).loc main_arg0)) transposes_S4x8192x3_S4x3x8192_0_2_1 := by
  show StableHlo.after hostOps0 (fun b => m (c, b)) (Proc.devRef .tc main_v1) = _
  after_results

/-- Entry (b, d, i) of the first transposed buffer is entry (b, i, d) of the second argument. -/
theorem V_v0_apply (m : (ℓ : Loc nD τ sig) → Buf (Elt Ideal) ℓ) (c : Dev nD) (b : Fin 4) (d : Fin 3) (i : Fin 8192) :
    (V m c main_v0 : S4x3x8192.Idx → EReal) (ix3 b d i)
      = (m ((c : Thread nD τ).loc main_arg1) : S4x8192x3.Idx → EReal) (ix3 b i d) := by
  rw [V_v0_eq m c]
  exact transpose_apply _ _ _ _ _ fun a => match a with | ⟨0, _⟩ => rfl | ⟨1, _⟩ => rfl | ⟨2, _⟩ => rfl

/-- Entry (b, d, i) of the second transposed buffer is entry (b, i, d) of the first argument. -/
theorem V_v1_apply (m : (ℓ : Loc nD τ sig) → Buf (Elt Ideal) ℓ) (c : Dev nD) (b : Fin 4) (d : Fin 3) (i : Fin 8192) :
    (V m c main_v1 : S4x3x8192.Idx → EReal) (ix3 b d i)
      = (m ((c : Thread nD τ).loc main_arg0) : S4x8192x3.Idx → EReal) (ix3 b i d) := by
  rw [V_v1_eq m c]
  exact transpose_apply _ _ _ _ _ fun a => match a with | ⟨0, _⟩ => rfl | ⟨1, _⟩ => rfl | ⟨2, _⟩ => rfl

end Cert.Chamfer.HostPrefix

end
-- ==== Proof.Grid.lean ====
/-
  The 64 grid points in the order they are visited: point `n` works on batch entry `n / 16`, on the stretch of 2048
  predicted points number `(n / 4) % 4` and on the stretch of 2048 ground-truth points number `n % 4`.
-/
import Mathlib.Data.Fin.Basic
import Mathlib.Tactic

namespace Cert.Chamfer

/-- The batch entry point `n` works on. -/
def batchOf (n : Nat) (hn : n < 64) : Fin 4 := ⟨n / 16, by omega⟩

/-- Predicted point `r` of the stretch point `n` works on, as a point of the whole cloud. -/
def rowOf (n : Nat) (hn : n < 64) (r : Fin 2048) : Fin 8192 := ⟨2048 * ((n / 4) % 4) + r.val, by omega⟩

/-- Ground-truth point `j` of the stretch point `n` works on, as a point of the whole cloud. -/
def colOf (n : Nat) (hn : n < 64) (j : Fin 2048) : Fin 8192 := ⟨2048 * (n % 4) + j.val, by omega⟩

@[simp] theorem batchOf_val (n : Nat) (hn : n < 64) : (batchOf n hn).val = n / 16 := rfl
@[simp] theorem rowOf_val (n : Nat) (hn : n < 64) (r : Fin 2048) : (rowOf n hn r).val = 2048 * ((n / 4) % 4) + r.val := rfl
@[simp] theorem colOf_val (n : Nat) (hn : n < 64) (j : Fin 2048) : (colOf n hn j).val = 2048 * (n % 4) + j.val := rfl

end Cert.Chamfer
-- ==== Proof.Blocks.lean ====
/-
  The two input blocks of a grid point, read off the cloud arguments. The first input window stages, at grid
  point t, the block [t / 16, 0 .. 3, 2048 * ((t / 4) % 4) .. + 2048) of the transposed predicted cloud; the
  second, the block [t / 16, 0 .. 3, 2048 * (t % 4) .. + 2048) of the transposed ground-truth cloud. An element of
  a block sits in its array, on each axis, at the block index times the block extent plus its own coordinate; the
  transposed clouds read at (b, d, i) are the arguments at (b, i, d).
-/
import proofs.«100491_j8641474200219_2_alg».proof.Proof.HostPrefix
import proofs.«100491_j8641474200219_2_alg».proof.Proof.Grid

set_option maxRecDepth 16384

noncomputable section

namespace Cert.Chamfer.Blocks

open Cert.KernelIdeal Cert.KernelIdeal.Gen
open Idealize.ShloMosaic Idealize.ShloMosaic.TcCoe Idealize.ShloMosaic.ValueIdx Idealize.SL.Sem

/-- The first input window's block index at grid point t: batch entry t / 16, all three coordinates, stretch
    (t / 4) % 4 of the points. -/
theorem index0 : ∀ t : Fin grid0.N,
    win0_0.index t (0 : Fin 3) = t.val / 16 ∧ win0_0.index t (1 : Fin 3) = 0 ∧ win0_0.index t (2 : Fin 3) = (t.val / 4) % 4 := by
  decide +kernel

/-- The second input window's block index at grid point t: batch entry t / 16, all three coordinates, stretch
    t % 4 of the points. -/
theorem index1 : ∀ t : Fin grid0.N,
    win0_1.index t (0 : Fin 3) = t.val / 16 ∧ win0_1.index t (1 : Fin 3) = 0 ∧ win0_1.index t (2 : Fin 3) = t.val % 4 := by
  decide +kernel

/-- The first input window's block at point t, read at x, is its array at the index whose coordinates are the
    block index times the block extent plus x's. -/
theorem iblk0_apply (m : (ℓ : Loc nD τ sig) → Buf (Elt Ideal) ℓ) (c : Dev nD) (t : Fin cfg0.N) (x : S1x3x2048.Idx)
    (k : S4x3x8192.Idx) (hk0 : (k 0).val = t.val / 16) (hk1 : (k 1).val = (x 1).val)
    (hk2 : (k 2).val = 2048 * ((t.val / 4) % 4) + (x 2).val) :
    (iblk (F := Ideal) m c 0 t : S1x3x2048.Idx → EReal) x = (V m c main_v0 : S4x3x8192.Idx → EReal) k := by
  have hi := index0 t
  have hx0 : (x 0).val = 0 := by have h : (x 0).val < 1 := (x 0).isLt; omega
  unfold iblk
  rw [View.read_apply]
  show V m c main_v0 _ = V m c main_v0 _
  congr 1
  funext a
  apply Fin.ext
  match a with
  | ⟨0, _⟩ => show win0_0.index t 0 * 1 + 1 * (x 0).val = (k 0).val; rw [hi.1, hk0, hx0]; omega
  | ⟨1, _⟩ => show win0_0.index t 1 * 3 + 1 * (x 1).val = (k 1).val; rw [hi.2.1, hk1]; omega
  | ⟨2, _⟩ => show win0_0.index t 2 * 2048 + 1 * (x 2).val = (k 2).val; rw [hi.2.2, hk2]; omega

/-- The same for the second input window. -/
theorem iblk1_apply (m : (ℓ : Loc nD τ sig) → Buf (Elt Ideal) ℓ) (c : Dev nD) (t : Fin cfg0.N) (x : S1x3x2048.Idx)
    (k : S4x3x8192.Idx) (hk0 : (k 0).val = t.val / 16) (hk1 : (k 1).val = (x 1).val)
    (hk2 : (k 2).val = 2048 * (t.val % 4) + (x 2).val) :
    (iblk (F := Ideal) m c 1 t : S1x3x2048.Idx → EReal) x = (V m c main_v1 : S4x3x8192.Idx → EReal) k := by
  have hi := index1 t
  have hx0 : (x 0).val = 0 := by have h : (x 0).val < 1 := (x 0).isLt; omega
  unfold iblk
  rw [View.read_apply]
  show V m c main_v1 _ = V m c main_v1 _
  congr 1
  funext a
  apply Fin.ext
  match a with
  | ⟨0, _⟩ => show win0_1.index t 0 * 1 + 1 * (x 0).val = (k 0).val; rw [hi.1, hk0, hx0]; omega
  | ⟨1, _⟩ => show win0_1.index t 1 * 3 + 1 * (x 1).val = (k 1).val; rw [hi.2.1, hk1]; omega
  | ⟨2, _⟩ => show win0_1.index t 2 * 2048 + 1 * (x 2).val = (k 2).val; rw [hi.2.2, hk2]; omega

/-- Coordinate d of predicted point r of the stretch grid point t works on: the first input block at (0, d, r) is
    the second argument at (batch, point, d). -/
theorem pred_block (m : (ℓ : Loc nD τ sig) → Buf (Elt Ideal) ℓ) (c : Dev nD) (t : Fin cfg0.N) (ht : t.val < 64) (d : Fin 3)
    (r : Fin 2048) :
    (iblk (F := Ideal) m c 0 t : S1x3x2048.Idx → EReal) (ix3 (0 : Fin 1) d r)
      = (m ((c : Thread nD τ).loc main_arg1) : S4x8192x3.Idx → EReal)
          (ix3 (Cert.Chamfer.batchOf t.val ht) (Cert.Chamfer.rowOf t.val ht r) d) :=
  (iblk0_apply m c t (ix3 (0 : Fin 1) d r) (ix3 (Cert.Chamfer.batchOf t.val ht) d (Cert.Chamfer.rowOf t.val ht r)) rfl rfl rfl).trans
    (Cert.Chamfer.HostPrefix.V_v0_apply m c _ d _)

/-- Coordinate d of ground-truth point j of the stretch grid point t works on: the second input block at (0, d, j)
    is the first argument at (batch, point, d). -/
theorem gt_block (m : (ℓ : Loc nD τ sig) → Buf (Elt Ideal) ℓ) (c : Dev nD) (t : Fin cfg0.N) (ht : t.val < 64) (d : Fin 3)
    (j : Fin 2048) :
    (iblk (F := Ideal) m c 1 t : S1x3x2048.Idx → EReal) (ix3 (0 : Fin 1) d j)
      = (m ((c : Thread nD τ).loc main_arg0) : S4x8192x3.Idx → EReal)
          (ix3 (Cert.Chamfer.batchOf t.val ht) (Cert.Chamfer.colOf t.val ht j) d) :=
  (iblk1_apply m c t (ix3 (0 : Fin 1) d j) (ix3 (Cert.Chamfer.batchOf t.val ht) d (Cert.Chamfer.colOf t.val ht j)) rfl rfl rfl).trans
    (Cert.Chamfer.HostPrefix.V_v1_apply m c _ d _)

end Cert.Chamfer.Blocks

end
-- ==== Proof.Infima.lean ====
/-
  The running minima of the sweep, as infima. Within a batch entry the 16 points visit the pairs (predicted stretch qi,
  ground-truth stretch kj) in the order 4 qi + kj. After point n the running minimum of predicted point i is the infimum
  of its squared distances to the ground-truth points of the stretches kj' ≤ kj met so far in this row of the sweep, and
  the running minimum of ground-truth point j is the infimum over the predicted points i whose pair
  (stretch of i, stretch of j) has been visited. Stated for an arbitrary table D of extended reals.
-/
import proofs.«100491_j8641474200219_2_alg».proof.Proof.Grid
import Mathlib.Data.EReal.Basic
import Mathlib.Order.CompleteLattice.Basic

noncomputable section

namespace Cert.Chamfer

variable (D : Fin 4 → Fin 8192 → Fin 8192 → EReal)

/-- An infimum under a condition that is a disjunction splits. -/
theorem iInf_or_split {ι : Type} (f : ι → EReal) (p q s : ι → Prop) (h : ∀ i, s i ↔ p i ∨ q i) :
    (⨅ i, ⨅ (_ : s i), f i) = min (⨅ i, ⨅ (_ : p i), f i) (⨅ i, ⨅ (_ : q i), f i) := by
  apply le_antisymm
  · exact le_min (le_iInf₂ fun i hp => iInf₂_le i ((h i).2 (Or.inl hp))) (le_iInf₂ fun i hq => iInf₂_le i ((h i).2 (Or.inr hq)))
  · refine le_iInf₂ fun i hs => ?_
    rcases (h i).1 hs with hp | hq
    · exact (min_le_left _ _).trans (iInf₂_le i hp)
    · exact (min_le_right _ _).trans (iInf₂_le i hq)

theorem iInf_cond_congr {ι : Type} (f : ι → EReal) (p q : ι → Prop) (h : ∀ i, p i ↔ q i) :
    (⨅ i, ⨅ (_ : p i), f i) = ⨅ i, ⨅ (_ : q i), f i :=
  iInf_congr fun i => iInf_congr_Prop (h i) fun _ => rfl

theorem iInf_cond_false {ι : Type} (f : ι → EReal) (p : ι → Prop) (h : ∀ i, ¬p i) :
    (⨅ i, ⨅ (_ : p i), f i) = ⊤ := by
  refine le_antisymm le_top (le_iInf₂ fun i hp => absurd hp (h i))

theorem iInf_cond_true {ι : Type} (f : ι → EReal) (p : ι → Prop) (h : ∀ i, p i) :
    (⨅ i, ⨅ (_ : p i), f i) = ⨅ i, f i :=
  iInf_congr fun i => iInf_pos (h i)

/-- The infimum over a stretch of ground-truth points is the infimum over the points of the whole cloud lying in it. -/
theorem iInf_cols (f : Fin 8192 → EReal) (n : ℕ) (hn : n < 64) :
    (⨅ jj : Fin 2048, f (colOf n hn jj)) = ⨅ j : Fin 8192, ⨅ (_ : j.val / 2048 = n % 4), f j := by
  apply le_antisymm
  · refine le_iInf₂ fun j hj => ?_
    refine (iInf_le _ (⟨j.val - 2048 * (n % 4), by omega⟩ : Fin 2048)).trans (le_of_eq (congrArg f (Fin.ext ?_)))
    show 2048 * (n % 4) + (j.val - 2048 * (n % 4)) = j.val
    omega
  · exact le_iInf fun jj => iInf₂_le (colOf n hn jj) (by show (2048 * (n % 4) + jj.val) / 2048 = n % 4; omega)

/-- The same for a stretch of predicted points. -/
theorem iInf_rows (f : Fin 8192 → EReal) (n : ℕ) (hn : n < 64) :
    (⨅ r : Fin 2048, f (rowOf n hn r)) = ⨅ i : Fin 8192, ⨅ (_ : i.val / 2048 = (n / 4) % 4), f i := by
  apply le_antisymm
  · refine le_iInf₂ fun i hi => ?_
    refine (iInf_le _ (⟨i.val - 2048 * ((n / 4) % 4), by omega⟩ : Fin 2048)).trans (le_of_eq (congrArg f (Fin.ext ?_)))
    show 2048 * ((n / 4) % 4) + (i.val - 2048 * ((n / 4) % 4)) = i.val
    omega
  · exact le_iInf fun r => iInf₂_le (rowOf n hn r) (by show (2048 * ((n / 4) % 4) + r.val) / 2048 = (n / 4) % 4; omega)

/-- The running minimum of predicted point `r` of the current stretch after point `n`. -/
def rowAcc (n : ℕ) (hn : n < 64) (r : Fin 2048) : EReal :=
  ⨅ j : Fin 8192, ⨅ (_ : j.val / 2048 ≤ n % 4), D (batchOf n hn) (rowOf n hn r) j

/-- The running minimum of ground-truth point `j` after point `n`. -/
def colAcc (n : ℕ) (hn : n < 64) (j : Fin 8192) : EReal :=
  ⨅ i : Fin 8192, ⨅ (_ : 4 * (i.val / 2048) + j.val / 2048 ≤ n % 16), D (batchOf n hn) i j

theorem batchOf_pred (n : ℕ) (hn : n < 64) (h : n % 16 ≠ 0) (hn1 : n - 1 < 64) : batchOf (n - 1) hn1 = batchOf n hn :=
  Fin.ext (by show (n - 1) / 16 = n / 16; omega)

theorem rowOf_pred (n : ℕ) (hn : n < 64) (h : n % 4 ≠ 0) (hn1 : n - 1 < 64) (r : Fin 2048) : rowOf (n - 1) hn1 r = rowOf n hn r :=
  Fin.ext (by show 2048 * (((n - 1) / 4) % 4) + r.val = 2048 * ((n / 4) % 4) + r.val; omega)

/-- At the first ground-truth stretch the row minimum starts from +∞. -/
theorem rowAcc_first (n : ℕ) (hn : n < 64) (h : n % 4 = 0) (r : Fin 2048) :
    min ⊤ (⨅ jj : Fin 2048, D (batchOf n hn) (rowOf n hn r) (colOf n hn jj)) = rowAcc D n hn r := by
  rw [min_eq_right le_top, iInf_cols (fun j => D (batchOf n hn) (rowOf n hn r) j) n hn]
  exact iInf_cond_congr _ _ _ fun j => by omega

/-- At a later ground-truth stretch the row minimum takes in the stretch. -/
theorem rowAcc_next (n : ℕ) (hn : n < 64) (h : n % 4 ≠ 0) (hn1 : n - 1 < 64) (r : Fin 2048) :
    min (rowAcc D (n - 1) hn1 r) (⨅ jj : Fin 2048, D (batchOf n hn) (rowOf n hn r) (colOf n hn jj)) = rowAcc D n hn r := by
  unfold rowAcc
  rw [batchOf_pred n hn (by omega) hn1, rowOf_pred n hn h hn1 r, iInf_cols (fun j => D (batchOf n hn) (rowOf n hn r) j) n hn]
  refine ((iInf_or_split _ _ _ _ fun j => ?_).symm)
  show j.val / 2048 ≤ n % 4 ↔ j.val / 2048 ≤ (n - 1) % 4 ∨ j.val / 2048 = n % 4
  omega

/-- After the last ground-truth stretch the row minimum is the distance to the nearest ground-truth point. -/
theorem rowAcc_last (n : ℕ) (hn : n < 64) (h : n % 4 = 3) (r : Fin 2048) :
    rowAcc D n hn r = ⨅ j : Fin 8192, D (batchOf n hn) (rowOf n hn r) j :=
  iInf_cond_true _ _ fun j => by have := j.isLt; omega

/-- At the first point of a batch entry the column minima start from +∞. -/
theorem colAcc_first (n : ℕ) (hn : n < 64) (h : n % 16 = 0) (j : Fin 8192) :
    (if 2048 * (n % 4) ≤ j.val ∧ j.val < 2048 * (n % 4) + 2048 then
        min ⊤ (⨅ r : Fin 2048, D (batchOf n hn) (rowOf n hn r) j) else ⊤) = colAcc D n hn j := by
  unfold colAcc
  split
  · rename_i hj
    rw [min_eq_right le_top, iInf_rows (fun i => D (batchOf n hn) i j) n hn]
    exact iInf_cond_congr _ _ _ fun i => by omega
  · rename_i hj
    exact (iInf_cond_false _ _ fun i => by omega).symm

/-- At a later point the column minima of the point's stretch take in the predicted stretch; the others keep theirs. -/
theorem colAcc_next (n : ℕ) (hn : n < 64) (h : n % 16 ≠ 0) (hn1 : n - 1 < 64) (j : Fin 8192) :
    (if 2048 * (n % 4) ≤ j.val ∧ j.val < 2048 * (n % 4) + 2048 then
        min (colAcc D (n - 1) hn1 j) (⨅ r : Fin 2048, D (batchOf n hn) (rowOf n hn r) j) else colAcc D (n - 1) hn1 j)
      = colAcc D n hn j := by
  unfold colAcc
  rw [batchOf_pred n hn h hn1]
  split
  · rename_i hj
    rw [iInf_rows (fun i => D (batchOf n hn) i j) n hn]
    refine ((iInf_or_split _ _ _ _ fun i => ?_).symm)
    show 4 * (i.val / 2048) + j.val / 2048 ≤ n % 16 ↔ 4 * (i.val / 2048) + j.val / 2048 ≤ (n - 1) % 16 ∨ i.val / 2048 = (n / 4) % 4
    omega
  · rename_i hj
    refine iInf_cond_congr _ _ _ fun i => ?_
    have := j.isLt
    have := i.isLt
    omega

/-- After the last point of a batch entry the column minimum is the distance to the nearest predicted point. -/
theorem colAcc_last (n : ℕ) (hn : n < 64) (h : n % 16 = 15) (j : Fin 8192) :
    colAcc D n hn j = ⨅ i : Fin 8192, D (batchOf n hn) i j :=
  iInf_cond_true _ _ fun i => by have := j.isLt; have := i.isLt; omega

end Cert.Chamfer

end
-- ==== Proof.Arrays.lean ====
import proofs.«100491_j8641474200219_2_alg».proof.Proof.Gen.KernelIdeal.Frame
import proofs.«100491_j8641474200219_2_alg».proof.Proof.Grid
import Idealize.ShloMosaic.Lib.Pipeline.Value
import Idealize.ShloMosaic.Lib.ValueIdx

/-
  From blocks to arrays, for the two output arrays. The 64 grid points are visited in order; point `t` works on batch
  entry `t / 16`. The first output array `[4, 1, 8192]` is written back in stretches of 2048, at the points with
  `t % 4 = 3`, stretch number `(t / 4) % 4` of row `t / 16`; the second is written back a whole row at a time, at the
  points with `t % 16 = 15`. If what each writing point holds is its part of one function of the array's index, the
  array ends as that function: the writing points' blocks cover the array.
-/

noncomputable section

namespace Cert.Chamfer.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block index of the first output at point `t`: batch entry `t / 16`, stretch `(t / 4) % 4` (decided over the grid). -/
theorem idx2 : ∀ t : Fin cfg0.N, win0_2.index t (0 : Fin 3) = t.val / 16 ∧ win0_2.index t (1 : Fin 3) = 0
    ∧ win0_2.index t (2 : Fin 3) = (t.val / 4) % 4 :=
  (by decide +kernel : ∀ t : Fin grid0.N, win0_2.index t (0 : Fin 3) = t.val / 16 ∧ win0_2.index t (1 : Fin 3) = 0
    ∧ win0_2.index t (2 : Fin 3) = (t.val / 4) % 4)

/-- The block index of the second output at point `t`: batch entry `t / 16`, the whole row (decided over the grid). -/
theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)

/-- A block of 2048 that agrees with stretch `(n / 4) % 4` of row `n / 16` of `R`, read at a block index `y` and at the
    array index `k` with the matching coordinates. -/
theorem rows_point (X : S1x1x2048.Idx → EReal) (R : S4x1x8192.Idx → EReal) (n : Nat) (hn : n < 64)
    (hX : ∀ r : Fin 2048, X (ix3 (0 : Fin 1) (0 : Fin 1) r) = R (ix3 (Cert.Chamfer.batchOf n hn) (0 : Fin 1) (Cert.Chamfer.rowOf n hn r)))
    (y : S1x1x2048.Idx) (k : S4x1x8192.Idx) (hk0 : (k 0).val = n / 16) (hk1 : (k 1).val = 0)
    (hk2 : (k 2).val = 2048 * ((n / 4) % 4) + (y 2).val) : X y = R k := by
  have hy0 : (y 0).val < 1 := (y 0).isLt
  have hy1 : (y 1).val < 1 := (y 1).isLt
  have hy2 : (y 2).val < 2048 := (y 2).isLt
  have ey : y = ix3 (0 : Fin 1) (0 : Fin 1) (⟨(y 2).val, hy2⟩ : Fin 2048) :=
    funext fun a => Fin.ext (by match a with | ⟨0, _⟩ => (show (y 0).val = 0; omega) | ⟨1, _⟩ => (show (y 1).val = 0; omega) | ⟨2, _⟩ => rfl)
  have ek : k = ix3 (Cert.Chamfer.batchOf n hn) (0 : Fin 1) (Cert.Chamfer.rowOf n hn ⟨(y 2).val, hy2⟩) :=
    funext fun a => Fin.ext (by match a with | ⟨0, _⟩ => exact hk0 | ⟨1, _⟩ => exact hk1 | ⟨2, _⟩ => exact hk2)
  rw [ek]
  exact (congrArg X ey).trans (hX ⟨(y 2).val, hy2⟩)

/-- What a writing point writes back to the first output array is its block of `R`. -/
theorem flushed2_eq (c : Dev nD) (R : S4x1x8192.Idx → EReal)
    (h : ∀ (t : Fin cfg0.N) (ht : t.val < 64), t.val % 4 = 3 → ∀ r : Fin 2048, ((outsAt0 (F := Ideal) m c t.val t.isLt).1 : S1x1x2048.Idx → EReal) (ix3 (0 : Fin 1) (0 : Fin 1) r) = R (ix3 (Cert.Chamfer.batchOf t.val ht) (0 : Fin 1) (Cert.Chamfer.rowOf t.val ht r)))
    (t : Fin cfg0.N) (hf : (cfg0.win 2).flush t = true) :
    (dats (F := Ideal) m 0 c).flushed 2 t = ((cfg0.win 2).blk t).view.read (Elt Ideal) R := by
  have ht : t.val < 64 := lt_of_lt_of_eq t.isLt (show cfg0.N = 64 from N_0)
  have hmod : t.val % 4 = 3 := (flush0_2 t).mp hf
  obtain ⟨e0, e1, e2⟩ := idx2 t
  show (cfg0.win 2).cut (grid0.coords t) ((dats (F := Ideal) m 0 c).after 2 t) = _
  rw [after0_2]
  funext y
  show (outsAt0 (F := Ideal) m c t.val t.isLt).1 ((cfg0.win 2).xinj (grid0.coords t) y) = R (((cfg0.win 2).blk t).view.emb y)
  refine rows_point (outsAt0 (F := Ideal) m c t.val t.isLt).1 R t.val ht (h t ht hmod) ((cfg0.win 2).xinj (grid0.coords t) y) (((cfg0.win 2).blk t).view.emb y) ?_ ?_ ?_
  · show win0_2.index t (0 : Fin 3) * 1 + 1 * (y 0).val = t.val / 16
    have hy : (y 0).val < 1 := (y 0).isLt
    omega
  · show win0_2.index t (1 : Fin 3) * 1 + 1 * (y 1).val = 0
    have hy : (y 1).val < 1 := (y 1).isLt
    omega
  · show win0_2.index t (2 : Fin 3) * 2048 + 1 * (y 2).val = 2048 * ((t.val / 4) % 4) + (y 2).val
    omega

/-- An index of the first output array is in point `t`'s block iff each coordinate is in the block's range on its axis. -/
theorem mem_blk2 (t : Fin cfg0.N) (i : S4x1x8192.Idx) :
    i ∈ ((cfg0.win 2).blk t).view.set ↔ ∀ a : Fin 3, win0_2.index t a * S1x1x2048.size a ≤ (i a).val ∧ (i a).val < win0_2.index t a * S1x1x2048.size a + S1x1x2048.size a := by
  show i ∈ ((View.whole main_v2_0).slice (win0_2.rect t)).set ↔ _
  rw [View.set_slice_whole, Rect.mem_set_unit]
  exact Iff.rfl

/-- Every index `(b, 0, i)` of the first output array is in the block of the writing point `16 b + 4 (i / 2048) + 3`. -/
theorem cover2 (i : S4x1x8192.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  have hN : cfg0.N = 64 := N_0
  refine ⟨⟨16 * (i 0).val + 4 * ((i 2).val / 2048) + 3, by rw [hN]; omega⟩, ?_, ?_⟩
  · exact (flush0_2 _).mpr (by show (16 * (i 0).val + 4 * ((i 2).val / 2048) + 3) % 4 = 3; omega)
  · rw [mem_blk2]
    obtain ⟨e0, e1, e2⟩ := idx2 ⟨16 * (i 0).val + 4 * ((i 2).val / 2048) + 3, by rw [hN]; omega⟩
    have v : (⟨16 * (i 0).val + 4 * ((i 2).val / 2048) + 3, by rw [hN]; omega⟩ : Fin cfg0.N).val = 16 * (i 0).val + 4 * ((i 2).val / 2048) + 3 := rfl
    rw [v] at e0 e2
    intro a
    match a with
    | ⟨0, _⟩ =>
      show win0_2.index _ (0 : Fin 3) * 1 ≤ (i 0).val ∧ (i 0).val < win0_2.index _ (0 : Fin 3) * 1 + 1
      rw [e0]; omega
    | ⟨1, _⟩ =>
      show win0_2.index _ (1 : Fin 3) * 1 ≤ (i 1).val ∧ (i 1).val < win0_2.index _ (1 : Fin 3) * 1 + 1
      rw [e1]; omega
    | ⟨2, _⟩ =>
      show win0_2.index _ (2 : Fin 3) * 2048 ≤ (i 2).val ∧ (i 2).val < win0_2.index _ (2 : Fin 3) * 2048 + 2048
      rw [e2]; omega

/-- THE FIRST OUTPUT ARRAY: if what every writing point leaves in its staging buffer is its stretch of `R`, the array ends as `R`. -/
theorem rows_array (c : Dev nD) (R : S4x1x8192.Idx → EReal)
    (h : ∀ (t : Fin cfg0.N) (ht : t.val < 64), t.val % 4 = 3 → ∀ r : Fin 2048, ((outsAt0 (F := Ideal) m c t.val t.isLt).1 : S1x1x2048.Idx → EReal) (ix3 (0 : Fin 1) (0 : Fin 1) r) = R (ix3 (Cert.Chamfer.batchOf t.val ht) (0 : Fin 1) (Cert.Chamfer.rowOf t.val ht r))) :
    ((dats (F := Ideal) m 0 c).arrAt 2 cfg0.N : S4x1x8192.Idx → EReal) = R :=
  (dats (F := Ideal) m 0 c).arrAt_eq_of_cover 2 R (fun t hf => flushed2_eq m c R h t hf) cover2

/-- A block of 8192 that agrees with row `n / 16` of `C`, read at a block index `y` and at the array index `k` with the
    matching coordinates. -/
theorem cols_point (X : S1x1x8192.Idx → EReal) (C : S4x1x8192.Idx → EReal) (n : Nat) (hn : n < 64)
    (hX : ∀ j : Fin 8192, X (ix3 (0 : Fin 1) (0 : Fin 1) j) = C (ix3 (Cert.Chamfer.batchOf n hn) (0 : Fin 1) j))
    (y : S1x1x8192.Idx) (k : S4x1x8192.Idx) (hk0 : (k 0).val = n / 16) (hk1 : (k 1).val = 0)
    (hk2 : (k 2).val = (y 2).val) : X y = C k := by
  have hy0 : (y 0).val < 1 := (y 0).isLt
  have hy1 : (y 1).val < 1 := (y 1).isLt
  have hy2 : (y 2).val < 8192 := (y 2).isLt
  have ey : y = ix3 (0 : Fin 1) (0 : Fin 1) (⟨(y 2).val, hy2⟩ : Fin 8192) :=
    funext fun a => Fin.ext (by match a with | ⟨0, _⟩ => (show (y 0).val = 0; omega) | ⟨1, _⟩ => (show (y 1).val = 0; omega) | ⟨2, _⟩ => rfl)
  have ek : k = ix3 (Cert.Chamfer.batchOf n hn) (0 : Fin 1) (⟨(y 2).val, hy2⟩ : Fin 8192) :=
    funext fun a => Fin.ext (by match a with | ⟨0, _⟩ => exact hk0 | ⟨1, _⟩ => exact hk1 | ⟨2, _⟩ => exact hk2)
  rw [ek]
  exact (congrArg X ey).trans (hX ⟨(y 2).val, hy2⟩)

/-- What a writing point writes back to the second output array is its block of `C`. -/
theorem flushed3_eq (c : Dev nD) (C : S4x1x8192.Idx → EReal)
    (h : ∀ (t : Fin cfg0.N) (ht : t.val < 64), t.val % 16 = 15 → ∀ j : Fin 8192, ((outsAt0 (F := Ideal) m c t.val t.isLt).2.1 : S1x1x8192.Idx → EReal) (ix3 (0 : Fin 1) (0 : Fin 1) j) = C (ix3 (Cert.Chamfer.batchOf t.val ht) (0 : Fin 1) j))
    (t : Fin cfg0.N) (hf : (cfg0.win 3).flush t = true) :
    (dats (F := Ideal) m 0 c).flushed 3 t = ((cfg0.win 3).blk t).view.read (Elt Ideal) C := by
  have ht : t.val < 64 := lt_of_lt_of_eq t.isLt (show cfg0.N = 64 from N_0)
  have hmod : t.val % 16 = 15 := (flush0_3 t).mp hf
  obtain ⟨e0, e1, e2⟩ := idx3 t
  show (cfg0.win 3).cut (grid0.coords t) ((dats (F := Ideal) m 0 c).after 3 t) = _
  rw [after0_3]
  funext y
  show (outsAt0 (F := Ideal) m c t.val t.isLt).2.1 ((cfg0.win 3).xinj (grid0.coords t) y) = C (((cfg0.win 3).blk t).view.emb y)
  refine cols_point (outsAt0 (F := Ideal) m c t.val t.isLt).2.1 C t.val ht (h t ht hmod) ((cfg0.win 3).xinj (grid0.coords t) y) (((cfg0.win 3).blk t).view.emb y) ?_ ?_ ?_
  · show win0_3.index t (0 : Fin 3) * 1 + 1 * (y 0).val = t.val / 16
    have hy : (y 0).val < 1 := (y 0).isLt
    omega
  · show win0_3.index t (1 : Fin 3) * 1 + 1 * (y 1).val = 0
    have hy : (y 1).val < 1 := (y 1).isLt
    omega
  · show win0_3.index t (2 : Fin 3) * 8192 + 1 * (y 2).val = (y 2).val
    omega

/-- An index of the second output array is in point `t`'s block iff each coordinate is in the block's range on its axis. -/
theorem mem_blk3 (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v2_1).slice (win0_3.rect t)).set ↔ _
  rw [View.set_slice_whole, Rect.mem_set_unit]
  exact Iff.rfl

/-- Every index `(b, 0, j)` of the second output array is in the block of the writing point `16 b + 15`. -/
theorem cover3 (i : S4x1x8192.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hN : cfg0.N = 64 := N_0
  refine ⟨⟨16 * (i 0).val + 15, by rw [hN]; omega⟩, ?_, ?_⟩
  · exact (flush0_3 _).mpr (by show (16 * (i 0).val + 15) % 16 = 15; omega)
  · rw [mem_blk3]
    obtain ⟨e0, e1, e2⟩ := idx3 ⟨16 * (i 0).val + 15, by rw [hN]; omega⟩
    have v : (⟨16 * (i 0).val + 15, by rw [hN]; omega⟩ : Fin cfg0.N).val = 16 * (i 0).val + 15 := rfl
    rw [v] at e0
    intro a
    match a with
    | ⟨0, _⟩ =>
      show win0_3.index _ (0 : Fin 3) * 1 ≤ (i 0).val ∧ (i 0).val < win0_3.index _ (0 : Fin 3) * 1 + 1
      rw [e0]; omega
    | ⟨1, _⟩ =>
      show win0_3.index _ (1 : Fin 3) * 1 ≤ (i 1).val ∧ (i 1).val < win0_3.index _ (1 : Fin 3) * 1 + 1
      rw [e1]; omega
    | ⟨2, _⟩ =>
      show win0_3.index _ (2 : Fin 3) * 8192 ≤ (i 2).val ∧ (i 2).val < win0_3.index _ (2 : Fin 3) * 8192 + 8192
      rw [e2]; omega

/-- THE SECOND OUTPUT ARRAY: if what every writing point leaves in its staging buffer is its row of `C`, the array ends as `C`. -/
theorem cols_array (c : Dev nD) (C : S4x1x8192.Idx → EReal)
    (h : ∀ (t : Fin cfg0.N) (ht : t.val < 64), t.val % 16 = 15 → ∀ j : Fin 8192, ((outsAt0 (F := Ideal) m c t.val t.isLt).2.1 : S1x1x8192.Idx → EReal) (ix3 (0 : Fin 1) (0 : Fin 1) j) = C (ix3 (Cert.Chamfer.batchOf t.val ht) (0 : Fin 1) j)) :
    ((dats (F := Ideal) m 0 c).arrAt 3 cfg0.N : S4x1x8192.Idx → EReal) = C :=
  (dats (F := Ideal) m 0 c).arrAt_eq_of_cover 3 C (fun t hf => flushed3_eq m c C h t hf) cover3

end Cert.Chamfer.Arrays
end
-- ==== Proof.Sweep.lean ====
/-
  The sweep over the 64 grid points. After point n the carried row minima are the infima of the squared distances
  over the ground-truth stretches met so far in this row of the sweep, and the carried column minima the infima over the
  predicted points whose pair of stretches has been visited; so the block written out at the last ground-truth stretch
  holds each predicted point's distance to its nearest ground-truth point, and the block written out at the last point
  of a batch entry each ground-truth point's distance to its nearest predicted point.
-/
import proofs.«100491_j8641474200219_2_alg».proof.Proof.Steps
import proofs.«100491_j8641474200219_2_alg».proof.Proof.Blocks
import proofs.«100491_j8641474200219_2_alg».proof.Proof.Infima
import proofs.«100491_j8641474200219_2_alg».proof.Proof.Spec
import proofs.«100491_j8641474200219_2_alg».proof.Proof.Arrays

set_option maxRecDepth 16384

noncomputable section

namespace Cert.Chamfer.Kernel

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (c : Dev nD)

/-- The ground-truth cloud and the predicted cloud, as the program is given them. -/
abbrev gtCloud : Cloud.Idx → EReal := m ((c : Thread nD τ).loc main_arg0)
abbrev predCloud : Cloud.Idx → EReal := m ((c : Thread nD τ).loc main_arg1)

/-- The table of squared distances of the two clouds. -/
abbrev table : Fin 4 → Fin 8192 → Fin 8192 → EReal := sqDist (gtCloud m c) (predCloud m c)

/-- A point's tile of squared distances is the stretch of the table it works on. -/
theorem tile_eq (t : Fin cfg0.N) (ht : t.val < 64) (r jj : Fin 2048) :
    tileDist (iblk (F := Ideal) m c 0 t) (iblk (F := Ideal) m c 1 t) r jj
      = table m c (batchOf t.val ht) (rowOf t.val ht r) (colOf t.val ht jj) := by
  unfold tileDist
  show _ = sqDist (gtCloud m c) (predCloud m c) (batchOf t.val ht) (rowOf t.val ht r) (colOf t.val ht jj)
  unfold sqDist
  rw [Blocks.pred_block m c t ht (0 : Fin 3) r, Blocks.pred_block m c t ht (1 : Fin 3) r, Blocks.pred_block m c t ht (2 : Fin 3) r,
    Blocks.gt_block m c t ht (0 : Fin 3) jj, Blocks.gt_block m c t ht (1 : Fin 3) jj, Blocks.gt_block m c t ht (2 : Fin 3) jj]

theorem rowsNext_eq (t : Fin cfg0.N) (ht : t.val < 64) (prev : S2048x1.Idx → EReal) (r : Fin 2048) :
    rowsNext (iblk (F := Ideal) m c 0 t) (iblk (F := Ideal) m c 1 t) prev r
      = min (prev (ix2 r (0 : Fin 1))) (⨅ jj : Fin 2048, table m c (batchOf t.val ht) (rowOf t.val ht r) (colOf t.val ht jj)) := by
  unfold rowsNext
  exact congrArg (min _) (iInf_congr fun jj => tile_eq m c t ht r jj)

theorem colsNext_eq (t : Fin cfg0.N) (ht : t.val < 64) (prev : S1x8192.Idx → EReal) (j : Fin 8192) :
    colsNext (iblk (F := Ideal) m c 0 t) (iblk (F := Ideal) m c 1 t) (grid0.coords t (2 : Fin 3)).val prev j
      = if 2048 * (t.val % 4) ≤ j.val ∧ j.val < 2048 * (t.val % 4) + 2048 then
          min (prev (ix2 (0 : Fin 1) j)) (⨅ r : Fin 2048, table m c (batchOf t.val ht) (rowOf t.val ht r) j)
        else prev (ix2 (0 : Fin 1) j) := by
  rw [coord2 t]
  unfold colsNext
  by_cases h : 2048 * (t.val % 4) ≤ j.val ∧ j.val < 2048 * (t.val % 4) + 2048
  · rw [dif_pos h, if_pos h]
    refine congrArg (min _) (iInf_congr fun r => ?_)
    refine (tile_eq m c t ht r _).trans ?_
    exact congrArg (table m c (batchOf t.val ht) (rowOf t.val ht r)) (Fin.ext (by
      show 2048 * (t.val % 4) + (j.val - 2048 * (t.val % 4)) = j.val
      omega))
  · rw [dif_neg h, if_neg h]

/-- The carried minima after every point. -/
theorem carried (n : ℕ) : ∀ (hn : n < cfg0.N) (hn64 : n < 64),
    (∀ r : Fin 2048, rowsSt m c n hn (ix2 r (0 : Fin 1)) = rowAcc (table m c) n hn64 r)
    ∧ (∀ j : Fin 8192, colsSt m c n hn (ix2 (0 : Fin 1) j) = colAcc (table m c) n hn64 j) := by
  induction n using Nat.strong_induction_on with
  | _ n ih =>
    intro hn hn64
    have hprev : ¬n % 16 = 0 → n - 1 < n := fun h => by omega
    constructor
    · intro r
      by_cases h0 : n % 4 = 0
      · rw [rows_step_first m c ⟨n, hn⟩ hn64 h0 r, rowsNext_eq m c ⟨n, hn⟩ hn64]
        exact rowAcc_first (table m c) n hn64 h0 r
      · have hlt : n - 1 < n := by omega
        rw [rows_step_next m c ⟨n, hn⟩ hn64 h0 r, rowsNext_eq m c ⟨n, hn⟩ hn64,
          (ih (n - 1) hlt (Nat.lt_of_le_of_lt (Nat.sub_le _ _) hn) (by omega)).1 r]
        exact rowAcc_next (table m c) n hn64 h0 (by omega) r
    · intro j
      by_cases h1 : n % 16 = 0
      · rw [cols_step_first m c ⟨n, hn⟩ hn64 h1 j, colsNext_eq m c ⟨n, hn⟩ hn64]
        exact colAcc_first (table m c) n hn64 h1 j
      · have hlt : n - 1 < n := by omega
        rw [cols_step_next m c ⟨n, hn⟩ hn64 h1 j, colsNext_eq m c ⟨n, hn⟩ hn64,
          (ih (n - 1) hlt (Nat.lt_of_le_of_lt (Nat.sub_le _ _) hn) (by omega)).2 j]
        exact colAcc_next (table m c) n hn64 h1 (by omega) j

/-- The first output's block at the last ground-truth stretch: each predicted point's distance to the nearest
    ground-truth point. -/
theorem out_rows (t : Fin cfg0.N) (ht : t.val < 64) (h2 : t.val % 4 = 3) (r : Fin 2048) :
    ((outsAt0 (F := Ideal) m c t.val t.isLt).1 : S1x1x2048.Idx → EReal) (ix3 (0 : Fin 1) (0 : Fin 1) r)
      = toNearestGt (gtCloud m c) (predCloud m c) (batchOf t.val ht) (rowOf t.val ht r) := by
  have h0 : ¬t.val % 4 = 0 := by omega
  have hlt : t.val - 1 < t.val := by omega
  rw [out_rows_step m c t ht h2 r, rowsNext_eq m c t ht,
    (carried m c (t.val - 1) (Nat.lt_of_le_of_lt (Nat.sub_le _ _) t.isLt) (by omega)).1 r,
    rowAcc_next (table m c) t.val ht h0 (by omega) r, rowAcc_last (table m c) t.val ht h2 r]
  rfl

/-- The second output's block at the last point of a batch entry: each ground-truth point's distance to the nearest
    predicted point. -/
theorem out_cols (t : Fin cfg0.N) (ht : t.val < 64) (h3 : t.val % 16 = 15) (j : Fin 8192) :
    ((outsAt0 (F := Ideal) m c t.val t.isLt).2.1 : S1x1x8192.Idx → EReal) (ix3 (0 : Fin 1) (0 : Fin 1) j)
      = toNearestPred (gtCloud m c) (predCloud m c) (batchOf t.val ht) j := by
  have h1 : ¬t.val % 16 = 0 := by omega
  rw [out_cols_step m c t ht h3 j, colsNext_eq m c t ht,
    (carried m c (t.val - 1) (Nat.lt_of_le_of_lt (Nat.sub_le _ _) t.isLt) (by omega)).2 j,
    colAcc_next (table m c) t.val ht h1 (by omega) j, colAcc_last (table m c) t.val ht h3 j]
  rfl

/-- The first result array after the run. -/
theorem rows_final (b : Fin 4) (i : Fin 8192) :
    ((dats (F := Ideal) m 0 c).arrAt 2 cfg0.N : S4x1x8192.Idx → EReal) (ix3 b (0 : Fin 1) i)
      = toNearestGt (gtCloud m c) (predCloud m c) b i := by
  rw [Arrays.rows_array m c (fun y => toNearestGt (gtCloud m c) (predCloud m c) (y 0) (y 2))
    (fun t ht h r => out_rows m c t ht h r)]

/-- The second result array after the run. -/
theorem cols_final (b : Fin 4) (j : Fin 8192) :
    ((dats (F := Ideal) m 0 c).arrAt 3 cfg0.N : S4x1x8192.Idx → EReal) (ix3 b (0 : Fin 1) j)
      = toNearestPred (gtCloud m c) (predCloud m c) b j := by
  rw [Arrays.cols_array m c (fun y => toNearestPred (gtCloud m c) (predCloud m c) (y 0) (y 2))
    (fun t ht h j => out_cols m c t ht h j)]

end Cert.Chamfer.Kernel

end
-- ==== Proof.lean ====
/-
  The certificate's claim. The kernel sweeps a grid of (batch entry, predicted stretch, ground-truth stretch) points and
  carries two running minima of squared distances, one per predicted point and one per ground-truth point; the reference
  forms the whole table of squared distances by the expansion |p|² + |g|² − 2 p·g, clamps it at zero and reduces it by
  minimum along either axis. For finite coordinates the expansion is exact and non-negative, so both programs hand the
  same two arrays of nearest-neighbour distances to the same masked mean. The three frames are the generated ones
  (the reference's is its generated run with the result dropped); no rewrite of the kernel was needed for its ideal
  reading, so the preservation claim is trivial.
-/
import proofs.«100491_j8641474200219_2_alg».proof.Defs
import proofs.«100491_j8641474200219_2_alg».proof.Proof.Assembly
import proofs.«100491_j8641474200219_2_alg».proof.Proof.Sweep
import proofs.«100491_j8641474200219_2_alg».proof.Proof.Gen.ReferenceIdeal.Run
import proofs.«100491_j8641474200219_2_alg».proof.Proof.Gen.ReferenceIdeal.Read

noncomputable section

namespace Cert.Proof

open Idealize.ShloMosaic Idealize.SL.Sem

theorem claim : Cert.Claim :=
  Cert.Chamfer.Assembly.claim_of
    (fun m c _ _ b i => Cert.Chamfer.Kernel.rows_final m c b i)
    (fun m c _ _ b j => Cert.Chamfer.Kernel.cols_final m c b j)

end Cert.Proof

end
